-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S1x128 .f32) (main_arg7 : FVec F S1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1x128 .f32 := Host.absf main_arg6
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1000000 32) (main_arg2 : FVec F S128x128 .f32) (main_arg3 : FVec F S128 .f32) (main_arg4 : FVec F S128x256 .f32) (main_arg5 : FVec F S128 .f32) (main_arg6 : FVec F S1x128 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S256x128 : Shape := ⟨2, ![256, 128]⟩
abbrev S128x1 : Shape := ⟨2, ![128, 1]⟩
abbrev S1x1 : Shape := ⟨2, ![1, 1]⟩
abbrev S4096x128 : Shape := ⟨2, ![4096, 128]⟩
abbrev S4096x1 : Shape := ⟨2, ![4096, 1]⟩

abbrev nBuf : Space → Nat
  | .hbm => 40
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S100000x128, .bf16⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .bf16⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x128, .bf16⟩
  | .hbm, ⟨31, _⟩ => ⟨S128x128, .f32⟩
  | .hbm, ⟨32, _⟩ => ⟨S1x128, .f32⟩
  | .hbm, ⟨33, _⟩ => ⟨S256x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S128x1, .f32⟩
  | .hbm, ⟨38, _⟩ => ⟨S1x1, .f32⟩
  | .hbm, ⟨39, _⟩ => ⟨S1000000x1, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x1, .f32⟩
  | .local _ .vmem, ⟨10, _⟩ => ⟨S1x1, .f32⟩
  | .local _ .vmem, ⟨11, _⟩ => ⟨S4096x1, .f32⟩
  | .local _ .vmem, ⟨12, _⟩ => ⟨S4096x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S128x128_S128x128_1_0 : S128x128.Transposes [1, 0] S128x128
  shapeCasts_S128_S1x128 : S128.ShapeCasts S1x128
  transposes_S128x256_S256x128_1_0 : S128x256.Transposes [1, 0] S256x128
  slices_S256x128_S128x128_0_0 : S256x128.Slices ![0, 0] S128x128
  slices_S256x128_S128x128_128_0 : S256x128.Slices ![128, 0] S128x128
  transposes_S1x128_S128x1_1_0 : S1x128.Transposes [1, 0] S128x1
  shapeCasts_S1_S1x1 : S1.ShapeCasts S1x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S4096x128 : S1x128.Broadcasts S4096x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  gather_S100000x128_S1000000x1_S1000000x128_1_0_n_n_0_1_1128_wf : GatherDims.WF S100000x128 S1000000x1 S1000000x128 [1] [0] [] [0] [] 1 ![1, 128]
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x128.size a < S1000000x128.size a
  hwx0_0 : ∀ i : grid0.Coords, EltTy.bits .bf16 = 32 ∨ (Rect.unit (s := S1000000x128) (fun a => cc0_transform_0 i a * S4096x128.size a) (fun a => (Pipeline.Clip.of (cc0_transform_0 i a) (S4096x128.size a) (S1000000x128.size a)).extent (S4096x128.size a)) fun a => Pipeline.Clip.inb (Pipeline.Clip.ok_of (hstart0_0 i a))).WholeWords (EltTy.packing .bf16)
  hwxs0_0 : ∀ i : grid0.Coords, EltTy.bits .bf16 = 32 ∨ (Rect.unit (s := S4096x128) (fun _ => 0) (fun a => (Pipeline.Clip.of (cc0_transform_0 i a) (S4096x128.size a) (S1000000x128.size a)).extent (S4096x128.size a)) fun a => (Nat.zero_add _).trans_le (Pipeline.Clip.extent_le (Pipeline.Clip.ok_of (hstart0_0 i a)))).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x128.size a < S1000000x128.size a
  hwx0_1 : ∀ i : grid0.Coords, EltTy.bits .bf16 = 32 ∨ (Rect.unit (s := S1000000x128) (fun a => cc0_transform_1 i a * S4096x128.size a) (fun a => (Pipeline.Clip.of (cc0_transform_1 i a) (S4096x128.size a) (S1000000x128.size a)).extent (S4096x128.size a)) fun a => Pipeline.Clip.inb (Pipeline.Clip.ok_of (hstart0_1 i a))).WholeWords (EltTy.packing .bf16)
  hwxs0_1 : ∀ i : grid0.Coords, EltTy.bits .bf16 = 32 ∨ (Rect.unit (s := S4096x128) (fun _ => 0) (fun a => (Pipeline.Clip.of (cc0_transform_1 i a) (S4096x128.size a) (S1000000x128.size a)).extent (S4096x128.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S4096x1.size a < S1000000x1.size a
  hwx0_9 : ∀ i : grid0.Coords, EltTy.bits .f32 = 32 ∨ (Rect.unit (s := S1000000x1) (fun a => cc0_transform_9 i a * S4096x1.size a) (fun a => (Pipeline.Clip.of (cc0_transform_9 i a) (S4096x1.size a) (S1000000x1.size a)).extent (S4096x1.size a)) fun a => Pipeline.Clip.inb (Pipeline.Clip.ok_of (hstart0_9 i a))).WholeWords (EltTy.packing .f32)
  hwxs0_9 : ∀ i : grid0.Coords, EltTy.bits .f32 = 32 ∨ (Rect.unit (s := S4096x1) (fun _ => 0) (fun a => (Pipeline.Clip.of (cc0_transform_9 i a) (S4096x1.size a) (S1000000x1.size a)).extent (S4096x1.size a)) fun a => (Nat.zero_add _).trans_le (Pipeline.Clip.extent_le (Pipeline.Clip.ok_of (hstart0_9 i a)))).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpecClip (Memref.whole main_v11) S4096x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v18) S4096x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpecClip (Memref.whole main_v27) S4096x1.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x128, .f32⟩
  | .hbm, ⟨19, _⟩ => ⟨S1x1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x128, .f32⟩
  | .hbm, ⟨30, _⟩ => ⟨S128x128, .f32⟩
  | .hbm, ⟨31, _⟩ => ⟨S1000000x128, .f32⟩
  | .hbm, ⟨32, _⟩ => ⟨S1x128, .f32⟩
  | .hbm, ⟨33, _⟩ => ⟨S1000000x128, .f32⟩
  | .hbm, ⟨34, _⟩ => ⟨S1000000x128, .f32⟩
  | .hbm, ⟨35, _⟩ => ⟨S_, .f32⟩
  | .hbm, ⟨36, _⟩ => ⟨S1000000x128, .f32⟩
  | .hbm, ⟨37, _⟩ => ⟨S1000000x128, .f32⟩
  | .hbm, ⟨38, _⟩ => ⟨S128x128, .f32⟩
  | .hbm, ⟨39, _⟩ => ⟨S1000000x128, .f32⟩
  | .hbm, ⟨40, _⟩ => ⟨S1x128, .f32⟩
  | .hbm, ⟨41, _⟩ => ⟨S1000000x128, .f32⟩
  | .hbm, ⟨42, _⟩ => ⟨S1000000x128, .f32⟩
  | .hbm, ⟨43, _⟩ => ⟨S_, .f32⟩
  | .hbm, ⟨44, _⟩ => ⟨S1000000x128, .f32⟩
  | .hbm, ⟨45, _⟩ => ⟨S1000000x128, .f32⟩
  | .hbm, ⟨46, _⟩ => ⟨S1000000x128, .f32⟩
  | .hbm, ⟨47, _⟩ => ⟨S1000000x128, .f32⟩
  | .hbm, ⟨48, _⟩ => ⟨S1000000x256, .f32⟩
  | .hbm, ⟨49, _⟩ => ⟨S256x128, .f32⟩
  | .hbm, ⟨50, _⟩ => ⟨S1000000x128, .f32⟩
  | .hbm, ⟨51, _⟩ => ⟨S1x128, .f32⟩
  | .hbm, ⟨52, _⟩ => ⟨S1000000x128, .f32⟩
  | .hbm, ⟨53, _⟩ => ⟨S1000000x128, .f32⟩
  | .hbm, ⟨54, _⟩ => ⟨S_, .f32⟩
  | .hbm, ⟨55, _⟩ => ⟨S1000000x128, .f32⟩
  | .hbm, ⟨56, _⟩ => ⟨S1000000x128, .f32⟩
  | .hbm, ⟨57, _⟩ => ⟨S128x1, .f32⟩
  | .hbm, ⟨58, _⟩ => ⟨S1000000x1, .f32⟩
  | .hbm, ⟨59, _⟩ => ⟨S1x1, .f32⟩
  | .hbm, ⟨60, _⟩ => ⟨S1000000x1, .f32⟩
  | .hbm, ⟨61, _⟩ => ⟨S1000000x1, .f32⟩
  | .hbm, ⟨62, _⟩ => ⟨S1000000x1, .f32⟩
  | .hbm, ⟨63, _⟩ => ⟨S1000000x1, .f32⟩
  | .hbm, ⟨64, _⟩ => ⟨S_, .f32⟩
  | .hbm, ⟨65, _⟩ => ⟨S1000000x1, .f32⟩
  | .hbm, ⟨66, _⟩ => ⟨S1000000x1, .f32⟩
  | .hbm, ⟨67, _⟩ => ⟨S_, .f32⟩
  | .hbm, ⟨68, _⟩ => ⟨S1000000x1, .f32⟩
  | .hbm, ⟨69, _⟩ => ⟨S1000000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call2_cst : Ref sig .tc := ⟨.hbm, 54, rfl⟩
abbrev main_call2_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst : Ref sig .tc := ⟨.hbm, 64, rfl⟩
abbrev main_v46 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  transposes_S128x128_S128x128_1_0 : S128x128.Transposes [1, 0] S128x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  concatenates_S1000000x128_S1000000x128_S1000000x256_d1 : Shape.Concatenates [S1000000x128, S1000000x128] S1000000x256 1
  transposes_S128x256_S256x128_1_0 : S128x256.Transposes [1, 0] S256x128
  transposes_S1x128_S128x1_1_0 : S1x128.Transposes [1, 0] S128x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  gather_S100000x128_S1000000x1_S1000000x128_1_0_n_n_0_1_1128_wf : GatherDims.WF S100000x128 S1000000x1 S1000000x128 [1] [0] [] [0] [] 1 ![1, 128]
  dot_S1000000x128_S128x128_S1000000x128_1_0_0_1_n_n_wf : DotDims.WF S1000000x128 S128x128 S1000000x128 [1] [0] [0] [1] [] []
  dot_S1000000x256_S256x128_S1000000x128_1_0_0_1_n_n_wf : DotDims.WF S1000000x256 S256x128 S1000000x128 [1] [0] [0] [1] [] []
  dot_S1000000x128_S128x1_S1000000x1_1_0_0_1_n_n_wf : DotDims.WF S1000000x128 S128x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.BitsBody.lean ====
/-
  The kernel body as one triple, at any float instance.

  The body reads nine staging buffers whole — the two blocks of gathered endpoint rows (4096 × 128 each), the projection
  matrix and its bias, the two halves of the second layer's matrix and its bias, the output column and its bias — and
  writes the tenth whole: one store of the 4096 × 1 column of probabilities, a pure function (`edgeOut`) of the nine
  contents read. Nothing else is touched, so each input buffer is handed back as it was found.
-/
import proofs.«169450_j89781996355945_2_alg».proof.Proof.Gen.Kernel.Frame
import proofs.«169450_j89781996355945_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one is a whole buffer -/

abbrev rRows : Rect S4096x128 := Rect.unit (s := S4096x128) ![0, 0] S4096x128.size inb_S4096x128_S4096x128_0_0
abbrev rSq : Rect S128x128 := Rect.unit (s := S128x128) ![0, 0] S128x128.size inb_S128x128_S128x128_0_0
abbrev rBias : Rect S1x128 := Rect.unit (s := S1x128) ![0, 0] S1x128.size inb_S1x128_S1x128_0_0
abbrev rCol : Rect S128x1 := Rect.unit (s := S128x1) ![0, 0] S128x1.size inb_S128x1_S128x1_0_0
abbrev rOne : Rect S1x1 := Rect.unit (s := S1x1) ![0, 0] S1x1.size inb_S1x1_S1x1_0_0
abbrev rOut : Rect S4096x1 := Rect.unit (s := S4096x1) ![0, 0] S4096x1.size inb_S4096x1_S4096x1_0_0

/-! ## What the body leaves in the output's buffer -/

/-- The output buffer after the body, from the nine input buffers' contents: its one store, of the probabilities
    computed from the hidden layer, which is computed from the two row blocks and the weights. -/
def edgeOut (x0 x1 : Vec F S4096x128 .bf16) (x2 : Vec F S128x128 .f32) (x3 : Vec F S1x128 .f32)
    (x4 x5 : Vec F S128x128 .f32) (x6 : Vec F S1x128 .f32) (x7 : Vec F S128x1 .f32) (x8 : Vec F S1x1 .f32) :
    Vec F S4096x1 .f32 :=
  View.canon [⟨rOut, k0_pay1 (k0_pay2 (View.ld x2 rSq) (View.ld x3 rBias) (View.ld x0 rRows) (View.ld x1 rRows)
      (View.ld x4 rSq) (View.ld x5 rSq) (View.ld x6 rBias)) (View.ld x7 rCol) (View.ld x8 rOne)⟩]

/-- The one store is the whole buffer, so it covers it. -/
theorem cover_out (p0 : Vec F S4096x1 .f32) (y : S4096x1.Idx) :
    ∃ pc ∈ ([⟨rOut, p0⟩] : List (View.Piece (Elt F) S4096x1 .f32)), y ∈ pc.1.set :=
  View.cover_of_tiled [⟨rOut, p0⟩] S4096x1.size (by rfl) y

/-! ## The body's triple -/

set_option maxHeartbeats 4000000 in
/-- The body on whole staging buffers, the nine inputs at any contents `xW` and the output at anything, runs to the
    continuation holding the inputs as they were and the output at `edgeOut` of them. -/
theorem sound_kernel (c : Dev nD) (E : Set ℕ) (i : grid0.Coords)
    (arg1 : Memref sig .tc .vmem S4096x128 .bf16) (harg1 : arg1.IsWhole) (arg2 : Memref sig .tc .vmem S4096x128 .bf16) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S128x1 .f32) (harg8 : arg8.IsWhole)
    (arg9 : Memref sig .tc .vmem S1x1 .f32) (harg9 : arg9.IsWhole) (arg10 : Memref sig .tc .vmem S4096x1 .f32) (harg10 : arg10.IsWhole)
    (x0 x1 : Vec F S4096x128 .bf16) (x2 : Vec F S128x128 .f32) (x3 : Vec F S1x128 .f32)
    (x4 x5 : Vec F S128x128 .f32) (x6 : Vec F S1x128 .f32) (x7 : Vec F S128x1 .f32) (x8 : Vec F S1x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8
            ∗ owns (c : Thread nD τ) arg10 fullShare (edgeOut x0 x1 x2 x3 x4 x5 x6 x7 x8)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover_out _)

end Cert.Kernel.Body

end
-- ==== Proof.BitsData.lean ====
/-
  The proof data of the one pipeline, and the body's obligation at every grid point, at any float instance.

  The 1,000,000 edges are cut into 245 blocks of 4096 rows; the last block has only 576 rows inside the arrays, so its
  fetches fill the leading 576 rows of the two row buffers and leave the other 3520 rows at contents nothing names
  (`rowsA`, `rowsB`: the block where the fetch filled the buffer, an arbitrary `d` elsewhere), and its write-back
  writes only the leading 576 rows of the output buffer. The seven weight buffers are fetched once and always hold
  their whole arrays. The body leaves every input buffer as it found it and the output buffer at `edgeOut` of the nine.

  Two obligations are proved from the one triple of the body. In the first the output's contents are NAMED, which
  needs that rows inside the array of `edgeOut` do not depend on the row buffers' rows outside it (`RowLocal`: true
  where a matrix product's row depends on the left operand's same row only). In the second the output window is
  forgotten: nothing is said of what the body leaves there, which is all a frame claim needs.
-/
import proofs.«169450_j89781996355945_2_alg».proof.Proof.BitsBody
import Idealize.ShloMosaic.Lib.Pipeline.Kit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The source rows' buffer once the fetch at point `t` has landed: the block's rows inside the array, `d` past them. -/
def rowsA (c : Dev nD) (t : Fin cfg0.N) (d : Vec F S4096x128 .bf16) : Vec F S4096x128 .bf16 :=
  win0_0.fill (grid0.coords t) d (iblk m c 0 t)
/-- The destination rows' buffer likewise. -/
def rowsB (c : Dev nD) (t : Fin cfg0.N) (d : Vec F S4096x128 .bf16) : Vec F S4096x128 .bf16 :=
  win0_1.fill (grid0.coords t) d (iblk m c 1 t)

/-- The contents chosen for rows nothing names. -/
def pad : Vec F S4096x128 .bf16 := fun _ => (Elt.inhabited F _).default

/-- What the body leaves in the output's buffer at point `t`, the row buffers padded by `pad`. -/
def outAt (c : Dev nD) (t : Fin cfg0.N) : Vec F S4096x1 .f32 :=
  edgeOut (rowsA m c t pad) (rowsB m c t pad) (iblk m c 2 t) (iblk m c 3 t) (iblk m c 4 t) (iblk m c 5 t) (iblk m c 6 t)
    (iblk m c 7 t) (iblk m c 8 t)

/-- The proof data on core `c`: the arrays as the region finds them; after the body each input buffer at its block
    (the two row buffers padded) and the output's at `outAt`; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => rowsA m c t pad
    | ⟨1, _⟩ => rowsB m c t pad
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = rowsA m c t pad := by dsimp only [dats]
theorem after_1 (c : Dev nD) (t : Fin cfg0.N) : (dats m 0 c).after 1 t = rowsB m c t pad := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outAt m c t := by dsimp only [dats]

/-- A row buffer is fetched at every point: the body finds the block where the fetch filled the buffer. -/
theorem before_0 (c : Dev nD) (t : Fin cfg0.N) (d) : (dats m 0 c).before 0 t d = rowsA m c t d := by
  rw [(dats m 0 c).before_fetched 0 t (fetch0_0 t) d]
  unfold Dat.fetched Dat.blockOf rowsA iblk; rw [A_eq]; try rfl
theorem before_1 (c : Dev nD) (t : Fin cfg0.N) (d) : (dats m 0 c).before 1 t d = rowsB m c t d := by
  rw [(dats m 0 c).before_fetched 1 t (fetch0_1 t) d]
  unfold Dat.fetched Dat.blockOf rowsB iblk; rw [A_eq]; try rfl
/-- A weight buffer holds its whole array at every point, fetched there or not. -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The body at a grid point -/

/-- The body at point `t`, the row buffers as the fetches left them (padded by any `d0`, `d1`), the weights at their
    arrays and the output at anything: every input is handed back as found and the output holds `edgeOut` of them. -/
theorem sound_point (c : Dev nD) (t : Fin cfg0.N) (d0 d1 : Vec F S4096x128 .bf16) (K : PUnit → sProp 𝕄) :
    iprop(owns (c : Thread nD τ) (st0_0 t) fullShare (rowsA m c t d0) ∗ owns (c : Thread nD τ) (st0_1 t) fullShare (rowsB m c t d1)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare (iblk m c 6 t) ∗ owns (c : Thread nD τ) (st0_7 t) fullShare (iblk m c 7 t)
        ∗ owns (c : Thread nD τ) (st0_8 t) fullShare (iblk m c 8 t) ∗ (∃ d, owns (c : Thread nD τ) (st0_9 t) fullShare d)
        ∗ (iprop(owns (c : Thread nD τ) (st0_0 t) fullShare (rowsA m c t d0) ∗ owns (c : Thread nD τ) (st0_1 t) fullShare (rowsB m c t d1)
            ∗ owns (c : Thread nD τ) (st0_2 t) fullShare (iblk m c 2 t) ∗ owns (c : Thread nD τ) (st0_3 t) fullShare (iblk m c 3 t)
            ∗ owns (c : Thread nD τ) (st0_4 t) fullShare (iblk m c 4 t) ∗ owns (c : Thread nD τ) (st0_5 t) fullShare (iblk m c 5 t)
            ∗ owns (c : Thread nD τ) (st0_6 t) fullShare (iblk m c 6 t) ∗ owns (c : Thread nD τ) (st0_7 t) fullShare (iblk m c 7 t)
            ∗ owns (c : Thread nD τ) (st0_8 t) fullShare (iblk m c 8 t)
            ∗ owns (c : Thread nD τ) (st0_9 t) fullShare
                (edgeOut (rowsA m c t d0) (rowsB m c t d1) (iblk m c 2 t) (iblk m c 3 t) (iblk m c 4 t) (iblk m c 5 t) (iblk m c 6 t)
                  (iblk m c 7 t) (iblk m c 8 t))) -∗ K ⟨⟩))
      ⊢ wp frame (wpE (defs₀ (F := F)) Variants.none c none) Set.univ (bodyAt0 t) K := by
  unfold bodyAt0
  exact sound_kernel c Set.univ _ _ _ _ _ _ _ _ _ _ _ _ _ _ _ _ _ _ _ _ _
    (rowsA m c t d0) (rowsB m c t d1) (iblk m c 2 t) (iblk m c 3 t) (iblk m c 4 t) (iblk m c 5 t) (iblk m c 6 t)
    (iblk m c 7 t) (iblk m c 8 t) K

/-! ## The obligation with the output named -/

/-- Rows of the output inside the array depend on the row buffers through their rows inside the array only. -/
def RowLocal (F : FTy → Type) [FloatOps F] : Prop :=
  ∀ (t : Fin cfg0.N) (a a' b b' : Vec F S4096x128 .bf16) (x2 : Vec F S128x128 .f32) (x3 : Vec F S1x128 .f32)
    (x4 x5 : Vec F S128x128 .f32) (x6 : Vec F S1x128 .f32) (x7 : Vec F S128x1 .f32) (x8 : Vec F S1x1 .f32),
    win0_0.cut (grid0.coords t) a = win0_0.cut (grid0.coords t) a' → win0_1.cut (grid0.coords t) b = win0_1.cut (grid0.coords t) b' →
    win0_9.cut (grid0.coords t) (edgeOut a b x2 x3 x4 x5 x6 x7 x8) = win0_9.cut (grid0.coords t) (edgeOut a' b' x2 x3 x4 x5 x6 x7 x8)

set_option maxHeartbeats 1000000 in
/-- The library's body obligation, every window named: the three windows whose last block overhangs are stated on
    the rows inside the array only, where the output's are `outAt`'s by row locality. -/
theorem obligation_named (hloc : RowLocal F) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5,
    before_6 m c t d6, before_7 m c t d7, before_8 m c t d8]
  iapply (sound_point m c t d0 d1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  have hA : win0_0.fill (grid0.coords t) d0 (win0_0.cut (grid0.coords t) ((dats m 0 c).after 0 t)) = rowsA m c t d0 := by
    rw [after_0]; unfold rowsA; rw [Window.cut_fill]
  have hB : win0_1.fill (grid0.coords t) d1 (win0_1.cut (grid0.coords t) ((dats m 0 c).after 1 t)) = rowsB m c t d1 := by
    rw [after_1]; unfold rowsB; rw [Window.cut_fill]
  have hO : win0_9.fill (grid0.coords t)
        (edgeOut (rowsA m c t d0) (rowsB m c t d1) (iblk m c 2 t) (iblk m c 3 t) (iblk m c 4 t) (iblk m c 5 t) (iblk m c 6 t) (iblk m c 7 t) (iblk m c 8 t))
        (win0_9.cut (grid0.coords t) ((dats m 0 c).after 9 t))
      = edgeOut (rowsA m c t d0) (rowsB m c t d1) (iblk m c 2 t) (iblk m c 3 t) (iblk m c 4 t) (iblk m c 5 t) (iblk m c 6 t) (iblk m c 7 t) (iblk m c 8 t) := by
    rw [after_9]; unfold outAt
    exact Window.fill_congr_cut _ _ (hloc t _ _ _ _ _ _ _ _ _ _ _
      (by unfold rowsA; rw [Window.cut_fill, Window.cut_fill]) (by unfold rowsB; rw [Window.cut_fill, Window.cut_fill]))
  isplitl [H0]
  · iexists d0
    change _ ⊢ owns (c : Thread nD τ) (st0_0 t) fullShare (win0_0.fill (grid0.coords t) d0 (win0_0.cut (grid0.coords t) ((dats m 0 c).after 0 t)))
    rw [hA]; try iexact H0
  isplitl [H1]
  · iexists d1
    change _ ⊢ owns (c : Thread nD τ) (st0_1 t) fullShare (win0_1.fill (grid0.coords t) d1 (win0_1.cut (grid0.coords t) ((dats m 0 c).after 1 t)))
    rw [hB]; try iexact H1
  rw [after_2, after_3, after_4, after_5, after_6, after_7, after_8]
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _
  change _ ⊢ owns (c : Thread nD τ) (st0_9 t) fullShare (win0_9.fill (grid0.coords t) _ (win0_9.cut (grid0.coords t) ((dats m 0 c).after 9 t)))
  rw [hO]; try iexact H9

/-! ## The obligation with the output forgotten -/

/-- The output window alone is forgotten. -/
def forgetOut : Fin cfg0.W → Bool := fun
  | 0 => false | 1 => false | 2 => false | 3 => false | 4 => false | 5 => false | 6 => false | 7 => false | 8 => false
  | 9 => true | ⟨_ + 10, h⟩ => absurd h (Nat.not_lt.2 (Nat.le_add_left _ _))

set_option maxHeartbeats 1000000 in
/-- The library's body obligation, the output window forgotten: it is handed to the body at anything and taken back
    at anything; every input is handed back as found. -/
theorem obligation_forget (c : Dev nD) :
    BodyObligationLoose (dats (F := F) m 0 c) (defs₀ (F := F)) Variants.none () Set.univ forgetOut := fun t => by
  rw [bigSep_W0, bigSep_W0]
  simp only [forgetOut]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5,
    before_6 m c t d6, before_7 m c t d7, before_8 m c t d8]
  iapply (sound_point m c t d0 d1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  have hA : win0_0.fill (grid0.coords t) d0 (win0_0.cut (grid0.coords t) ((dats m 0 c).after 0 t)) = rowsA m c t d0 := by
    rw [after_0]; unfold rowsA; rw [Window.cut_fill]
  have hB : win0_1.fill (grid0.coords t) d1 (win0_1.cut (grid0.coords t) ((dats m 0 c).after 1 t)) = rowsB m c t d1 := by
    rw [after_1]; unfold rowsB; rw [Window.cut_fill]
  isplitl [H0]
  · iexists d0
    change _ ⊢ owns (c : Thread nD τ) (st0_0 t) fullShare (win0_0.fill (grid0.coords t) d0 (win0_0.cut (grid0.coords t) ((dats m 0 c).after 0 t)))
    rw [hA]; try iexact H0
  isplitl [H1]
  · iexists d1
    change _ ⊢ owns (c : Thread nD τ) (st0_1 t) fullShare (win0_1.fill (grid0.coords t) d1 (win0_1.cut (grid0.coords t) ((dats m 0 c).after 1 t)))
    rw [hB]; try iexact H1
  rw [after_2, after_3, after_4, after_5, after_6, after_7, after_8]
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.Kernel.Body

end
-- ==== Proof.BitsRun.lean ====
/-
  The launch: from the body's obligation at every grid point to a run of the whole program.

  With the output named, every weakly fair execution of the program terminates without a fault and leaves every
  array of the pipeline at what the write-backs compute from the proof data, and every other buffer as the region
  found it. With the output forgotten the same holds but for the output array, of which nothing is said. Either
  way the eight argument arrays end as they started, which is the frame claim.
-/
import proofs.«169450_j89781996355945_2_alg».proof.Proof.BitsData
import Idealize.ShloMosaic.Lib.Pipeline.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

set_option backward.isDefEq.respectTransparency.types false in
/-- The run with every array named (where the output's rows are row-local). -/
theorem run_named (hloc : RowLocal F) :
    θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => obligation_named m hloc c) (hshare := fun c => (dats m 0 c).share_full fun _ => rfl)
    (howed := fun _ _ => rfl) (V := V m) (hmain := hmain m Variants.none) (hA := A_eq m) (hΦ := fun _ _ => rfl)

set_option backward.isDefEq.respectTransparency.types false in
/-- The run with the output array forgotten. -/
theorem run_forget :
    θ_run defs (onTc (τ := τ) (main (F := F))) (s₀ m ρ)
      (Pipeline.RDat.FramePost cfg0 (fun c => (dats m 0 c).toRForget forgetOut) (V m)) :=
  Pipeline.RDat.θ_run_frame cfgs (0 : Fin 1) launch0 defs₀ Variants.none (fun c => (dats m 0 c).toRForget forgetOut) m ρ main
    (hbody := fun c => (obligation_forget m c).toRForget) (hshare := fun c => (dats m 0 c).share_full fun _ => rfl)
    (howed := fun _ _ => rfl) (V := V m) (hmain := hmain m Variants.none) (hA := A_eq m) (hΦ := fun _ _ => rfl)

/-- The frame claim from the run that forgets the output: no argument array is a window's array or scoped, so each
    ends as the region found it, which is as the program was launched. -/
theorem frame_forget :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_forget m ρ)

/-- The frame claim from the run that names the output. -/
theorem frame_named (hloc : RowLocal F) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_named m ρ hloc)

end Cert.Kernel.Body

end
-- ==== Proof.IdealBody.lean ====
/-
  The kernel body as one triple, at any float instance.

  The body reads nine staging buffers whole — the two blocks of gathered endpoint rows (4096 × 128 each), the projection
  matrix and its bias, the two halves of the second layer's matrix and its bias, the output column and its bias — and
  writes the tenth whole: one store of the 4096 × 1 column of probabilities, a pure function (`edgeOut`) of the nine
  contents read. Nothing else is touched, so each input buffer is handed back as it was found.
-/
import proofs.«169450_j89781996355945_2_alg».proof.Proof.Gen.KernelIdeal.Frame
import proofs.«169450_j89781996355945_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one is a whole buffer -/

abbrev rRows : Rect S4096x128 := Rect.unit (s := S4096x128) ![0, 0] S4096x128.size inb_S4096x128_S4096x128_0_0
abbrev rSq : Rect S128x128 := Rect.unit (s := S128x128) ![0, 0] S128x128.size inb_S128x128_S128x128_0_0
abbrev rBias : Rect S1x128 := Rect.unit (s := S1x128) ![0, 0] S1x128.size inb_S1x128_S1x128_0_0
abbrev rCol : Rect S128x1 := Rect.unit (s := S128x1) ![0, 0] S128x1.size inb_S128x1_S128x1_0_0
abbrev rOne : Rect S1x1 := Rect.unit (s := S1x1) ![0, 0] S1x1.size inb_S1x1_S1x1_0_0
abbrev rOut : Rect S4096x1 := Rect.unit (s := S4096x1) ![0, 0] S4096x1.size inb_S4096x1_S4096x1_0_0

/-! ## What the body leaves in the output's buffer -/

/-- The output buffer after the body, from the nine input buffers' contents: its one store, of the probabilities
    computed from the hidden layer, which is computed from the two row blocks and the weights. -/
def edgeOut (x0 x1 : Vec F S4096x128 .bf16) (x2 : Vec F S128x128 .f32) (x3 : Vec F S1x128 .f32)
    (x4 x5 : Vec F S128x128 .f32) (x6 : Vec F S1x128 .f32) (x7 : Vec F S128x1 .f32) (x8 : Vec F S1x1 .f32) :
    Vec F S4096x1 .f32 :=
  View.canon [⟨rOut, k0_pay1 (k0_pay2 (View.ld x2 rSq) (View.ld x3 rBias) (View.ld x0 rRows) (View.ld x1 rRows)
      (View.ld x4 rSq) (View.ld x5 rSq) (View.ld x6 rBias)) (View.ld x7 rCol) (View.ld x8 rOne)⟩]

/-- The one store is the whole buffer, so it covers it. -/
theorem cover_out (p0 : Vec F S4096x1 .f32) (y : S4096x1.Idx) :
    ∃ pc ∈ ([⟨rOut, p0⟩] : List (View.Piece (Elt F) S4096x1 .f32)), y ∈ pc.1.set :=
  View.cover_of_tiled [⟨rOut, p0⟩] S4096x1.size (by rfl) y

/-! ## The body's triple -/

set_option maxHeartbeats 4000000 in
/-- The body on whole staging buffers, the nine inputs at any contents `xW` and the output at anything, runs to the
    continuation holding the inputs as they were and the output at `edgeOut` of them. -/
theorem sound_kernel (c : Dev nD) (E : Set ℕ) (i : grid0.Coords)
    (arg1 : Memref sig .tc .vmem S4096x128 .bf16) (harg1 : arg1.IsWhole) (arg2 : Memref sig .tc .vmem S4096x128 .bf16) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S128x1 .f32) (harg8 : arg8.IsWhole)
    (arg9 : Memref sig .tc .vmem S1x1 .f32) (harg9 : arg9.IsWhole) (arg10 : Memref sig .tc .vmem S4096x1 .f32) (harg10 : arg10.IsWhole)
    (x0 x1 : Vec F S4096x128 .bf16) (x2 : Vec F S128x128 .f32) (x3 : Vec F S1x128 .f32)
    (x4 x5 : Vec F S128x128 .f32) (x6 : Vec F S1x128 .f32) (x7 : Vec F S128x1 .f32) (x8 : Vec F S1x1 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8
            ∗ owns (c : Thread nD τ) arg10 fullShare (edgeOut x0 x1 x2 x3 x4 x5 x6 x7 x8)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover_out _)

end Cert.KernelIdeal.Body

end
-- ==== Proof.IdealData.lean ====
/-
  The proof data of the one pipeline, and the body's obligation at every grid point, at any float instance.

  The 1,000,000 edges are cut into 245 blocks of 4096 rows; the last block has only 576 rows inside the arrays, so its
  fetches fill the leading 576 rows of the two row buffers and leave the other 3520 rows at contents nothing names
  (`rowsA`, `rowsB`: the block where the fetch filled the buffer, an arbitrary `d` elsewhere), and its write-back
  writes only the leading 576 rows of the output buffer. The seven weight buffers are fetched once and always hold
  their whole arrays. The body leaves every input buffer as it found it and the output buffer at `edgeOut` of the nine.

  Two obligations are proved from the one triple of the body. In the first the output's contents are NAMED, which
  needs that rows inside the array of `edgeOut` do not depend on the row buffers' rows outside it (`RowLocal`: true
  where a matrix product's row depends on the left operand's same row only). In the second the output window is
  forgotten: nothing is said of what the body leaves there, which is all a frame claim needs.
-/
import proofs.«169450_j89781996355945_2_alg».proof.Proof.IdealBody
import Idealize.ShloMosaic.Lib.Pipeline.Kit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The source rows' buffer once the fetch at point `t` has landed: the block's rows inside the array, `d` past them. -/
def rowsA (c : Dev nD) (t : Fin cfg0.N) (d : Vec F S4096x128 .bf16) : Vec F S4096x128 .bf16 :=
  win0_0.fill (grid0.coords t) d (iblk m c 0 t)
/-- The destination rows' buffer likewise. -/
def rowsB (c : Dev nD) (t : Fin cfg0.N) (d : Vec F S4096x128 .bf16) : Vec F S4096x128 .bf16 :=
  win0_1.fill (grid0.coords t) d (iblk m c 1 t)

/-- The contents chosen for rows nothing names. -/
def pad : Vec F S4096x128 .bf16 := fun _ => (Elt.inhabited F _).default

/-- What the body leaves in the output's buffer at point `t`, the row buffers padded by `pad`. -/
def outAt (c : Dev nD) (t : Fin cfg0.N) : Vec F S4096x1 .f32 :=
  edgeOut (rowsA m c t pad) (rowsB m c t pad) (iblk m c 2 t) (iblk m c 3 t) (iblk m c 4 t) (iblk m c 5 t) (iblk m c 6 t)
    (iblk m c 7 t) (iblk m c 8 t)

/-- The proof data on core `c`: the arrays as the region finds them; after the body each input buffer at its block
    (the two row buffers padded) and the output's at `outAt`; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => rowsA m c t pad
    | ⟨1, _⟩ => rowsB m c t pad
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = rowsA m c t pad := by dsimp only [dats]
theorem after_1 (c : Dev nD) (t : Fin cfg0.N) : (dats m 0 c).after 1 t = rowsB m c t pad := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outAt m c t := by dsimp only [dats]

/-- A row buffer is fetched at every point: the body finds the block where the fetch filled the buffer. -/
theorem before_0 (c : Dev nD) (t : Fin cfg0.N) (d) : (dats m 0 c).before 0 t d = rowsA m c t d := by
  rw [(dats m 0 c).before_fetched 0 t (fetch0_0 t) d]
  unfold Dat.fetched Dat.blockOf rowsA iblk; rw [A_eq]; try rfl
theorem before_1 (c : Dev nD) (t : Fin cfg0.N) (d) : (dats m 0 c).before 1 t d = rowsB m c t d := by
  rw [(dats m 0 c).before_fetched 1 t (fetch0_1 t) d]
  unfold Dat.fetched Dat.blockOf rowsB iblk; rw [A_eq]; try rfl
/-- A weight buffer holds its whole array at every point, fetched there or not. -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The body at a grid point -/

/-- The body at point `t`, the row buffers as the fetches left them (padded by any `d0`, `d1`), the weights at their
    arrays and the output at anything: every input is handed back as found and the output holds `edgeOut` of them. -/
theorem sound_point (c : Dev nD) (t : Fin cfg0.N) (d0 d1 : Vec F S4096x128 .bf16) (K : PUnit → sProp 𝕄) :
    iprop(owns (c : Thread nD τ) (st0_0 t) fullShare (rowsA m c t d0) ∗ owns (c : Thread nD τ) (st0_1 t) fullShare (rowsB m c t d1)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare (iblk m c 6 t) ∗ owns (c : Thread nD τ) (st0_7 t) fullShare (iblk m c 7 t)
        ∗ owns (c : Thread nD τ) (st0_8 t) fullShare (iblk m c 8 t) ∗ (∃ d, owns (c : Thread nD τ) (st0_9 t) fullShare d)
        ∗ (iprop(owns (c : Thread nD τ) (st0_0 t) fullShare (rowsA m c t d0) ∗ owns (c : Thread nD τ) (st0_1 t) fullShare (rowsB m c t d1)
            ∗ owns (c : Thread nD τ) (st0_2 t) fullShare (iblk m c 2 t) ∗ owns (c : Thread nD τ) (st0_3 t) fullShare (iblk m c 3 t)
            ∗ owns (c : Thread nD τ) (st0_4 t) fullShare (iblk m c 4 t) ∗ owns (c : Thread nD τ) (st0_5 t) fullShare (iblk m c 5 t)
            ∗ owns (c : Thread nD τ) (st0_6 t) fullShare (iblk m c 6 t) ∗ owns (c : Thread nD τ) (st0_7 t) fullShare (iblk m c 7 t)
            ∗ owns (c : Thread nD τ) (st0_8 t) fullShare (iblk m c 8 t)
            ∗ owns (c : Thread nD τ) (st0_9 t) fullShare
                (edgeOut (rowsA m c t d0) (rowsB m c t d1) (iblk m c 2 t) (iblk m c 3 t) (iblk m c 4 t) (iblk m c 5 t) (iblk m c 6 t)
                  (iblk m c 7 t) (iblk m c 8 t))) -∗ K ⟨⟩))
      ⊢ wp frame (wpE (defs₀ (F := F)) Variants.none c none) Set.univ (bodyAt0 t) K := by
  unfold bodyAt0
  exact sound_kernel c Set.univ _ _ _ _ _ _ _ _ _ _ _ _ _ _ _ _ _ _ _ _ _
    (rowsA m c t d0) (rowsB m c t d1) (iblk m c 2 t) (iblk m c 3 t) (iblk m c 4 t) (iblk m c 5 t) (iblk m c 6 t)
    (iblk m c 7 t) (iblk m c 8 t) K

/-! ## The obligation with the output named -/

/-- Rows of the output inside the array depend on the row buffers through their rows inside the array only. -/
def RowLocal (F : FTy → Type) [FloatOps F] : Prop :=
  ∀ (t : Fin cfg0.N) (a a' b b' : Vec F S4096x128 .bf16) (x2 : Vec F S128x128 .f32) (x3 : Vec F S1x128 .f32)
    (x4 x5 : Vec F S128x128 .f32) (x6 : Vec F S1x128 .f32) (x7 : Vec F S128x1 .f32) (x8 : Vec F S1x1 .f32),
    win0_0.cut (grid0.coords t) a = win0_0.cut (grid0.coords t) a' → win0_1.cut (grid0.coords t) b = win0_1.cut (grid0.coords t) b' →
    win0_9.cut (grid0.coords t) (edgeOut a b x2 x3 x4 x5 x6 x7 x8) = win0_9.cut (grid0.coords t) (edgeOut a' b' x2 x3 x4 x5 x6 x7 x8)

set_option maxHeartbeats 1000000 in
/-- The library's body obligation, every window named: the three windows whose last block overhangs are stated on
    the rows inside the array only, where the output's are `outAt`'s by row locality. -/
theorem obligation_named (hloc : RowLocal F) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5,
    before_6 m c t d6, before_7 m c t d7, before_8 m c t d8]
  iapply (sound_point m c t d0 d1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  have hA : win0_0.fill (grid0.coords t) d0 (win0_0.cut (grid0.coords t) ((dats m 0 c).after 0 t)) = rowsA m c t d0 := by
    rw [after_0]; unfold rowsA; rw [Window.cut_fill]
  have hB : win0_1.fill (grid0.coords t) d1 (win0_1.cut (grid0.coords t) ((dats m 0 c).after 1 t)) = rowsB m c t d1 := by
    rw [after_1]; unfold rowsB; rw [Window.cut_fill]
  have hO : win0_9.fill (grid0.coords t)
        (edgeOut (rowsA m c t d0) (rowsB m c t d1) (iblk m c 2 t) (iblk m c 3 t) (iblk m c 4 t) (iblk m c 5 t) (iblk m c 6 t) (iblk m c 7 t) (iblk m c 8 t))
        (win0_9.cut (grid0.coords t) ((dats m 0 c).after 9 t))
      = edgeOut (rowsA m c t d0) (rowsB m c t d1) (iblk m c 2 t) (iblk m c 3 t) (iblk m c 4 t) (iblk m c 5 t) (iblk m c 6 t) (iblk m c 7 t) (iblk m c 8 t) := by
    rw [after_9]; unfold outAt
    exact Window.fill_congr_cut _ _ (hloc t _ _ _ _ _ _ _ _ _ _ _
      (by unfold rowsA; rw [Window.cut_fill, Window.cut_fill]) (by unfold rowsB; rw [Window.cut_fill, Window.cut_fill]))
  isplitl [H0]
  · iexists d0
    change _ ⊢ owns (c : Thread nD τ) (st0_0 t) fullShare (win0_0.fill (grid0.coords t) d0 (win0_0.cut (grid0.coords t) ((dats m 0 c).after 0 t)))
    rw [hA]; try iexact H0
  isplitl [H1]
  · iexists d1
    change _ ⊢ owns (c : Thread nD τ) (st0_1 t) fullShare (win0_1.fill (grid0.coords t) d1 (win0_1.cut (grid0.coords t) ((dats m 0 c).after 1 t)))
    rw [hB]; try iexact H1
  rw [after_2, after_3, after_4, after_5, after_6, after_7, after_8]
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _
  change _ ⊢ owns (c : Thread nD τ) (st0_9 t) fullShare (win0_9.fill (grid0.coords t) _ (win0_9.cut (grid0.coords t) ((dats m 0 c).after 9 t)))
  rw [hO]; try iexact H9

/-! ## The obligation with the output forgotten -/

/-- The output window alone is forgotten. -/
def forgetOut : Fin cfg0.W → Bool := fun
  | 0 => false | 1 => false | 2 => false | 3 => false | 4 => false | 5 => false | 6 => false | 7 => false | 8 => false
  | 9 => true | ⟨_ + 10, h⟩ => absurd h (Nat.not_lt.2 (Nat.le_add_left _ _))

set_option maxHeartbeats 1000000 in
/-- The library's body obligation, the output window forgotten: it is handed to the body at anything and taken back
    at anything; every input is handed back as found. -/
theorem obligation_forget (c : Dev nD) :
    BodyObligationLoose (dats (F := F) m 0 c) (defs₀ (F := F)) Variants.none () Set.univ forgetOut := fun t => by
  rw [bigSep_W0, bigSep_W0]
  simp only [forgetOut]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5,
    before_6 m c t d6, before_7 m c t d7, before_8 m c t d8]
  iapply (sound_point m c t d0 d1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  have hA : win0_0.fill (grid0.coords t) d0 (win0_0.cut (grid0.coords t) ((dats m 0 c).after 0 t)) = rowsA m c t d0 := by
    rw [after_0]; unfold rowsA; rw [Window.cut_fill]
  have hB : win0_1.fill (grid0.coords t) d1 (win0_1.cut (grid0.coords t) ((dats m 0 c).after 1 t)) = rowsB m c t d1 := by
    rw [after_1]; unfold rowsB; rw [Window.cut_fill]
  isplitl [H0]
  · iexists d0
    change _ ⊢ owns (c : Thread nD τ) (st0_0 t) fullShare (win0_0.fill (grid0.coords t) d0 (win0_0.cut (grid0.coords t) ((dats m 0 c).after 0 t)))
    rw [hA]; try iexact H0
  isplitl [H1]
  · iexists d1
    change _ ⊢ owns (c : Thread nD τ) (st0_1 t) fullShare (win0_1.fill (grid0.coords t) d1 (win0_1.cut (grid0.coords t) ((dats m 0 c).after 1 t)))
    rw [hB]; try iexact H1
  rw [after_2, after_3, after_4, after_5, after_6, after_7, after_8]
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Cert.KernelIdeal.Body

end
-- ==== Proof.IdealWindows.lean ====
/-
  What the pipeline's windows read, index by index, at any float instance.

  The grid has 245 points; point `t` takes rows `4096 t … 4096 t + 4095` of the two gathered row arrays and of the
  result, of which only the rows below 1,000,000 exist: at the last point the part moved has 576 rows. The seven
  weight windows are their whole arrays at every point. The arrays the windows read are results of host operations on
  the arguments: the projection matrix transposed, the second layer's matrix transposed and cut into its two halves
  of 128 rows, the output column transposed, and the three biases reshaped to one row.
-/
import proofs.«169450_j89781996355945_2_alg».proof.Proof.IdealData
import Idealize.ShloMosaic.Lib.Pipeline.Value
import Idealize.ShloMosaic.Lib.ValueIdx
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable {F : FTy → Type} [FloatOps F]

variable (m : (ℓ : Loc nD τ sig) → Buf (Elt F) ℓ)

/-! ## The schedule, decided over the grid -/

/-- The three moving windows are at block `(t, 0)` at point `t`; their parts moved agree on the row axis, span the
    columns, and end at the array's end or the block's, whichever comes first. -/
theorem moving_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0
    ∧ win0_0.xsize (grid0.coords t) (0 : Fin 2) = win0_9.xsize (grid0.coords t) (0 : Fin 2)
    ∧ win0_1.xsize (grid0.coords t) (0 : Fin 2) = win0_9.xsize (grid0.coords t) (0 : Fin 2)
    ∧ win0_0.xsize (grid0.coords t) (1 : Fin 2) = 128 ∧ win0_1.xsize (grid0.coords t) (1 : Fin 2) = 128
    ∧ win0_9.xsize (grid0.coords t) (1 : Fin 2) = 1
    ∧ t.val * 4096 + win0_9.xsize (grid0.coords t) (0 : Fin 2) = min (t.val * 4096 + 4096) 1000000 :=
  (by decide +kernel : ∀ t : Fin grid0.N, _)

/-- The seven weight windows are at block `(0, 0)` at every point. -/
theorem fixed_facts : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `r` of the part moved at point `t` is a row of the arrays. -/
theorem row_lt (t : Fin cfg0.N) (r : Nat) (hr : r < win0_9.xsize (grid0.coords t) (0 : Fin 2)) : t.val * 4096 + r < 1000000 := by
  obtain ⟨-, -, -, -, -, -, -, -, -, -, -, e⟩ := moving_facts t
  omega

/-! ## A row buffer read inside the part moved -/

/-- Row `r`, column `k` of the source rows' buffer at point `t`, for a row the fetch filled, is row `4096 t + r` of
    the gathered source rows. -/
theorem rowsA_apply (c : Dev nD) (t : Fin cfg0.N) (d : Vec F S4096x128 .bf16) (r : Fin 4096) (k : Fin 128)
    (hr : r.val < win0_9.xsize (grid0.coords t) (0 : Fin 2)) :
    rowsA m c t d (ix2 r k)
      = (V m c main_v11 : S1000000x128.Idx → Elt F .bf16) (ix2 ⟨t.val * 4096 + r.val, row_lt t r.val hr⟩ k) := by
  obtain ⟨e0, e1, -, -, -, -, x0, -, x1, -, -, -⟩ := moving_facts t
  have hmv : win0_0.moved (grid0.coords t) (ix2 r k) = true := by
    rw [Window.moved_iff]; intro a
    match a with
    | ⟨0, _⟩ => show r.val < win0_0.xsize (grid0.coords t) (0 : Fin 2); omega
    | ⟨1, _⟩ => show k.val < win0_0.xsize (grid0.coords t) (1 : Fin 2); have := k.isLt; omega
  unfold rowsA Window.fill
  rw [dif_pos hmv]
  show (V m c main_v11 : S1000000x128.Idx → Elt F .bf16) (((cfg0.win 0).blk t).view.emb _) = _
  refine congrArg _ (funext fun a => Fin.ext ?_)
  match a with
  | ⟨0, _⟩ => show win0_0.index t (0 : Fin 2) * 4096 + 1 * r.val = t.val * 4096 + r.val; omega
  | ⟨1, _⟩ => show win0_0.index t (1 : Fin 2) * 128 + 1 * k.val = k.val; omega

/-- The destination rows' buffer likewise. -/
theorem rowsB_apply (c : Dev nD) (t : Fin cfg0.N) (d : Vec F S4096x128 .bf16) (r : Fin 4096) (k : Fin 128)
    (hr : r.val < win0_9.xsize (grid0.coords t) (0 : Fin 2)) :
    rowsB m c t d (ix2 r k)
      = (V m c main_v18 : S1000000x128.Idx → Elt F .bf16) (ix2 ⟨t.val * 4096 + r.val, row_lt t r.val hr⟩ k) := by
  obtain ⟨-, -, e0, e1, -, -, -, x0, -, x1, -, -⟩ := moving_facts t
  have hmv : win0_1.moved (grid0.coords t) (ix2 r k) = true := by
    rw [Window.moved_iff]; intro a
    match a with
    | ⟨0, _⟩ => show r.val < win0_1.xsize (grid0.coords t) (0 : Fin 2); omega
    | ⟨1, _⟩ => show k.val < win0_1.xsize (grid0.coords t) (1 : Fin 2); have := k.isLt; omega
  unfold rowsB Window.fill
  rw [dif_pos hmv]
  show (V m c main_v18 : S1000000x128.Idx → Elt F .bf16) (((cfg0.win 1).blk t).view.emb _) = _
  refine congrArg _ (funext fun a => Fin.ext ?_)
  match a with
  | ⟨0, _⟩ => show win0_1.index t (0 : Fin 2) * 4096 + 1 * r.val = t.val * 4096 + r.val; omega
  | ⟨1, _⟩ => show win0_1.index t (1 : Fin 2) * 128 + 1 * k.val = k.val; omega

/-! ## The weight windows are their whole arrays -/

theorem blk2_apply (c : Dev nD) (t : Fin cfg0.N) (k j : Fin 128) :
    iblk m c 2 t (ix2 k j) = (V m c main_v19 : S128x128.Idx → Elt F .f32) (ix2 k j) := by
  obtain ⟨e0, e1, -⟩ := fixed_facts t
  show (V m c main_v19 : S128x128.Idx → Elt F .f32) (((cfg0.win 2).blk t).view.emb (ix2 k j)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

theorem blk3_apply (c : Dev nD) (t : Fin cfg0.N) (j : Fin 128) :
    iblk m c 3 t (ix2 (0 : Fin 1) j) = (V m c main_v20 : S1x128.Idx → Elt F .f32) (ix2 (0 : Fin 1) j) := by
  obtain ⟨-, -, e0, e1, -⟩ := fixed_facts t
  show (V m c main_v20 : S1x128.Idx → Elt F .f32) (((cfg0.win 3).blk t).view.emb (ix2 (0 : Fin 1) j)) = _
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

theorem blk4_apply (c : Dev nD) (t : Fin cfg0.N) (k j : Fin 128) :
    iblk m c 4 t (ix2 k j) = (V m c main_v22 : S128x128.Idx → Elt F .f32) (ix2 k j) := by
  obtain ⟨-, -, -, -, e0, e1, -⟩ := fixed_facts t
  show (V m c main_v22 : S128x128.Idx → Elt F .f32) (((cfg0.win 4).blk t).view.emb (ix2 k j)) = _
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

theorem blk5_apply (c : Dev nD) (t : Fin cfg0.N) (k j : Fin 128) :
    iblk m c 5 t (ix2 k j) = (V m c main_v23 : S128x128.Idx → Elt F .f32) (ix2 k j) := by
  obtain ⟨-, -, -, -, -, -, e0, e1, -⟩ := fixed_facts t
  show (V m c main_v23 : S128x128.Idx → Elt F .f32) (((cfg0.win 5).blk t).view.emb (ix2 k j)) = _
  refine congrArg _ (funext fun a => Fin.ext ?_)
  match a with
  | ⟨0, _⟩ => show win0_5.index t (0 : Fin 2) * 128 + 1 * k.val = k.val; omega
  | ⟨1, _⟩ => show win0_5.index t (1 : Fin 2) * 128 + 1 * j.val = j.val; omega

theorem blk6_apply (c : Dev nD) (t : Fin cfg0.N) (j : Fin 128) :
    iblk m c 6 t (ix2 (0 : Fin 1) j) = (V m c main_v24 : S1x128.Idx → Elt F .f32) (ix2 (0 : Fin 1) j) := by
  obtain ⟨-, -, -, -, -, -, -, -, e0, e1, -⟩ := fixed_facts t
  show (V m c main_v24 : S1x128.Idx → Elt F .f32) (((cfg0.win 6).blk t).view.emb (ix2 (0 : Fin 1) j)) = _
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * j.val = j.val; omega

theorem blk7_apply (c : Dev nD) (t : Fin cfg0.N) (k : Fin 128) :
    iblk m c 7 t (ix2 k (0 : Fin 1)) = (V m c main_v25 : S128x1.Idx → Elt F .f32) (ix2 k (0 : Fin 1)) := by
  obtain ⟨-, -, -, -, -, -, -, -, -, -, e0, e1, -⟩ := fixed_facts t
  show (V m c main_v25 : S128x1.Idx → Elt F .f32) (((cfg0.win 7).blk t).view.emb (ix2 k (0 : Fin 1))) = _
  refine congrArg _ (funext fun a => Fin.ext ?_)
  match a with
  | ⟨0, _⟩ => show win0_7.index t (0 : Fin 2) * 128 + 1 * k.val = k.val; omega
  | ⟨1, _⟩ => show win0_7.index t (1 : Fin 2) * 1 + 1 * 0 = 0; omega

theorem blk8_apply (c : Dev nD) (t : Fin cfg0.N) :
    iblk m c 8 t (ix2 (0 : Fin 1) (0 : Fin 1)) = (V m c main_v26 : S1x1.Idx → Elt F .f32) (ix2 (0 : Fin 1) (0 : Fin 1)) := by
  obtain ⟨-, -, -, -, -, -, -, -, -, -, -, -, e0, e1⟩ := fixed_facts t
  show (V m c main_v26 : S1x1.Idx → Elt F .f32) (((cfg0.win 8).blk t).view.emb (ix2 (0 : Fin 1) (0 : Fin 1))) = _
  refine congrArg _ (funext fun a => Fin.ext ?_)
  match a with
  | ⟨0, _⟩ => show win0_8.index t (0 : Fin 2) * 1 + 1 * 0 = 0; omega
  | ⟨1, _⟩ => show win0_8.index t (1 : Fin 2) * 1 + 1 * 0 = 0; omega

/-! ## The weight arrays as the host operations left them, read at an index -/

/-- The projection matrix arrives transposed. -/
theorem wd_at (c : Dev nD) (k j : Fin 128) :
    (V m c main_v19 : S128x128.Idx → Elt F .f32) (ix2 k j) = m ((c : Thread nD τ).loc main_arg2) (ix2 j k) := by
  have e : (V m c main_v19 : S128x128.Idx → Elt F .f32)
      = transpose S128x128 [1, 0] (m ((c : Thread nD τ).loc main_arg2)) transposes_S128x128_S128x128_1_0 := by
    dsimp only [Gen.V, Gen.hostOps0]; after_results <;> rfl
  rw [e]
  exact transpose_apply [1, 0] _ transposes_S128x128_S128x128_1_0 (ix2 k j) (ix2 j k) (fun b => match b with
    | ⟨0, _⟩ => rfl
    | ⟨1, _⟩ => rfl)

/-- The projection's bias arrives as one row. -/
theorem bd_at (c : Dev nD) (j : Fin 128) :
    (V m c main_v20 : S1x128.Idx → Elt F .f32) (ix2 (0 : Fin 1) j) = m ((c : Thread nD τ).loc main_arg3) (ix1 j) := by
  have e : (V m c main_v20 : S1x128.Idx → Elt F .f32)
      = shapeCast S1x128 (m ((c : Thread nD τ).loc main_arg3)) shapeCasts_S128_S1x128 := by
    dsimp only [Gen.V, Gen.hostOps0]; after_results <;> rfl
  rw [e]
  exact shapeCast_apply _ shapeCasts_S128_S1x128 (ix2 (0 : Fin 1) j) (ix1 j)
    (by rewrite [Shape.rowMajor_val_two, Shape.rowMajor_val_one]; show j.val = 0 * 128 + j.val; omega)

/-- The second layer's matrix arrives transposed; its first 128 rows multiply the products, -/
theorem w1a_at (c : Dev nD) (k j : Fin 128) :
    (V m c main_v22 : S128x128.Idx → Elt F .f32) (ix2 k j) = m ((c : Thread nD τ).loc main_arg4) (ix2 j (Fin.castAdd 128 k)) := by
  have e : (V m c main_v22 : S128x128.Idx → Elt F .f32)
      = extractStridedSlice S128x128 ![0, 0]
          (transpose S256x128 [1, 0] (m ((c : Thread nD τ).loc main_arg4)) transposes_S128x256_S256x128_1_0)
          slices_S256x128_S128x128_0_0 := by
    dsimp only [Gen.V, Gen.hostOps0]; after_results <;> rfl
  rw [e]
  refine (extractStridedSlice_apply ![0, 0] _ slices_S256x128_S128x128_0_0 (ix2 k j) (ix2 (Fin.castAdd 128 k) j) (fun a => match a with
    | ⟨0, _⟩ => by show k.val = 0 + k.val; omega
    | ⟨1, _⟩ => by show j.val = 0 + j.val; omega)).trans ?_
  exact transpose_apply [1, 0] _ transposes_S128x256_S256x128_1_0 (ix2 (Fin.castAdd 128 k) j) (ix2 j (Fin.castAdd 128 k)) (fun b => match b with
    | ⟨0, _⟩ => rfl
    | ⟨1, _⟩ => rfl)

/-- and its last 128 rows the differences. -/
theorem w1b_at (c : Dev nD) (k j : Fin 128) :
    (V m c main_v23 : S128x128.Idx → Elt F .f32) (ix2 k j) = m ((c : Thread nD τ).loc main_arg4) (ix2 j (Fin.natAdd 128 k)) := by
  have e : (V m c main_v23 : S128x128.Idx → Elt F .f32)
      = extractStridedSlice S128x128 ![128, 0]
          (transpose S256x128 [1, 0] (m ((c : Thread nD τ).loc main_arg4)) transposes_S128x256_S256x128_1_0)
          slices_S256x128_S128x128_128_0 := by
    dsimp only [Gen.V, Gen.hostOps0]; after_results <;> rfl
  rw [e]
  refine (extractStridedSlice_apply ![128, 0] _ slices_S256x128_S128x128_128_0 (ix2 k j) (ix2 (Fin.natAdd 128 k) j) (fun a => match a with
    | ⟨0, _⟩ => by show 128 + k.val = 128 + k.val; rfl
    | ⟨1, _⟩ => by show j.val = 0 + j.val; omega)).trans ?_
  exact transpose_apply [1, 0] _ transposes_S128x256_S256x128_1_0 (ix2 (Fin.natAdd 128 k) j) (ix2 j (Fin.natAdd 128 k)) (fun b => match b with
    | ⟨0, _⟩ => rfl
    | ⟨1, _⟩ => rfl)

/-- The second layer's bias arrives as one row. -/
theorem b1_at (c : Dev nD) (j : Fin 128) :
    (V m c main_v24 : S1x128.Idx → Elt F .f32) (ix2 (0 : Fin 1) j) = m ((c : Thread nD τ).loc main_arg5) (ix1 j) := by
  have e : (V m c main_v24 : S1x128.Idx → Elt F .f32)
      = shapeCast S1x128 (m ((c : Thread nD τ).loc main_arg5)) shapeCasts_S128_S1x128 := by
    dsimp only [Gen.V, Gen.hostOps0]; after_results <;> rfl
  rw [e]
  exact shapeCast_apply _ shapeCasts_S128_S1x128 (ix2 (0 : Fin 1) j) (ix1 j)
    (by rewrite [Shape.rowMajor_val_two, Shape.rowMajor_val_one]; show j.val = 0 * 128 + j.val; omega)

/-- The output row arrives as a column. -/
theorem w2_at (c : Dev nD) (k : Fin 128) :
    (V m c main_v25 : S128x1.Idx → Elt F .f32) (ix2 k (0 : Fin 1)) = m ((c : Thread nD τ).loc main_arg6) (ix2 (0 : Fin 1) k) := by
  have e : (V m c main_v25 : S128x1.Idx → Elt F .f32)
      = transpose S128x1 [1, 0] (m ((c : Thread nD τ).loc main_arg6)) transposes_S1x128_S128x1_1_0 := by
    dsimp only [Gen.V, Gen.hostOps0]; after_results <;> rfl
  rw [e]
  exact transpose_apply [1, 0] _ transposes_S1x128_S128x1_1_0 (ix2 k (0 : Fin 1)) (ix2 (0 : Fin 1) k) (fun b => match b with
    | ⟨0, _⟩ => rfl
    | ⟨1, _⟩ => rfl)

/-- The output bias arrives as a one-by-one matrix. -/
theorem b2_at (c : Dev nD) :
    (V m c main_v26 : S1x1.Idx → Elt F .f32) (ix2 (0 : Fin 1) (0 : Fin 1)) = m ((c : Thread nD τ).loc main_arg7) (ix1 (0 : Fin 1)) := by
  have e : (V m c main_v26 : S1x1.Idx → Elt F .f32)
      = shapeCast S1x1 (m ((c : Thread nD τ).loc main_arg7)) shapeCasts_S1_S1x1 := by
    dsimp only [Gen.V, Gen.hostOps0]; after_results <;> rfl
  rw [e]
  exact shapeCast_apply _ shapeCasts_S1_S1x1 (ix2 (0 : Fin 1) (0 : Fin 1)) (ix1 (0 : Fin 1))
    (by rewrite [Shape.rowMajor_val_two, Shape.rowMajor_val_one]; rfl)

end Cert.KernelIdeal.Body

end
-- ==== Proof.IdealRun.lean ====
/-
  The launch: from the body's obligation at every grid point to a run of the whole program.

  With the output named, every weakly fair execution of the program terminates without a fault and leaves every
  array of the pipeline at what the write-backs compute from the proof data, and every other buffer as the region
  found it. With the output forgotten the same holds but for the output array, of which nothing is said. Either
  way the eight argument arrays end as they started, which is the frame claim.
-/
import proofs.«169450_j89781996355945_2_alg».proof.Proof.IdealData
import Idealize.ShloMosaic.Lib.Pipeline.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

set_option backward.isDefEq.respectTransparency.types false in
/-- The run with every array named (where the output's rows are row-local). -/
theorem run_named (hloc : RowLocal F) :
    θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => obligation_named m hloc c) (hshare := fun c => (dats m 0 c).share_full fun _ => rfl)
    (howed := fun _ _ => rfl) (V := V m) (hmain := hmain m Variants.none) (hA := A_eq m) (hΦ := fun _ _ => rfl)

set_option backward.isDefEq.respectTransparency.types false in
/-- The run with the output array forgotten. -/
theorem run_forget :
    θ_run defs (onTc (τ := τ) (main (F := F))) (s₀ m ρ)
      (Pipeline.RDat.FramePost cfg0 (fun c => (dats m 0 c).toRForget forgetOut) (V m)) :=
  Pipeline.RDat.θ_run_frame cfgs (0 : Fin 1) launch0 defs₀ Variants.none (fun c => (dats m 0 c).toRForget forgetOut) m ρ main
    (hbody := fun c => (obligation_forget m c).toRForget) (hshare := fun c => (dats m 0 c).share_full fun _ => rfl)
    (howed := fun _ _ => rfl) (V := V m) (hmain := hmain m Variants.none) (hA := A_eq m) (hΦ := fun _ _ => rfl)

/-- The frame claim from the run that forgets the output: no argument array is a window's array or scoped, so each
    ends as the region found it, which is as the program was launched. -/
theorem frame_forget :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_forget m ρ)

/-- The frame claim from the run that names the output. -/
theorem frame_named (hloc : RowLocal F) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_named m ρ hloc)

end Cert.KernelIdeal.Body

end
-- ==== Proof.Spec.lean ====
/-
  The edge scorer as ONE function of its arrays, row by row, on the extended reals.

  For an edge `e` with gathered endpoint rows `s = src e` and `d = dst e` (128 features each):
    x j = max (∑ k, s k * Wd j k + bd j) 0,   y j = max (∑ k, d k * Wd j k + bd j) 0        (the shared projection and its rectifier)
    h j = max ((∑ k, (x k * y k) * W1 j k + ∑ k, (x k - y k) * W1 j (128 + k)) + b1 j) 0      (the product and difference features, 256 columns of W1)
    p   = logistic (∑ k, h k * W2 0 k + b2 0)
  The second layer's 256 columns are written as their two halves of 128: a sum over 256 indices is the sum over its
  first 128 plus the sum over its last 128 in any commutative monoid (`sum_halves`), so no finiteness is involved.
-/
import Idealize.ShloMosaic.PureOps.Ideal
import Idealize.ShloMosaic.Lib.ValueIdx

noncomputable section

namespace Cert.EdgeSpec

open Idealize.ShloMosaic Idealize.ShloMosaic.ValueIdx

/-- A matrix of extended reals indexed by a literal two-axis shape. -/
abbrev Mat (a b : Nat) : Type := (⟨2, ![a, b]⟩ : Shape).Idx → EReal
/-- A vector of extended reals indexed by a literal one-axis shape. -/
abbrev Vc (a : Nat) : Type := (⟨1, ![a]⟩ : Shape).Idx → EReal

/-- The shared first projection of one endpoint row, rectified: `max (s · Wd j + bd j) 0`. -/
def proj (Wd : Mat 128 128) (bd : Vc 128) (s : Fin 128 → EReal) (j : Fin 128) : EReal :=
  max (∑ k : Fin 128, s k * Wd (ix2 j k) + bd (ix1 j)) 0

/-- The second layer on the product and difference features, the 256 columns of `W1` as two halves. -/
def mix (W1 : Mat 128 256) (b1 : Vc 128) (x y : Fin 128 → EReal) (j : Fin 128) : EReal :=
  max ((∑ k : Fin 128, (x k * y k) * W1 (ix2 j (Fin.castAdd 128 k))
        + ∑ k : Fin 128, (x k - y k) * W1 (ix2 j (Fin.natAdd 128 k))) + b1 (ix1 j)) 0

/-- The edge's probability from its hidden row. -/
def score (W2 : Mat 1 128) (b2 : Vc 1) (h : Fin 128 → EReal) : EReal :=
  Ideal.logistic (∑ k : Fin 128, h k * W2 (ix2 0 k) + b2 (ix1 0))

/-- One edge's probability from its two endpoint rows. -/
def edgeRow (Wd : Mat 128 128) (bd : Vc 128) (W1 : Mat 128 256) (b1 : Vc 128) (W2 : Mat 1 128) (b2 : Vc 1)
    (s d : Fin 128 → EReal) : EReal :=
  score W2 b2 (mix W1 b1 (proj Wd bd s) (proj Wd bd d))

/-- Every edge's probability: row `e` of the result from rows `e` of the gathered endpoint features. -/
def edgeProb (src dst : Mat 1000000 128) (Wd : Mat 128 128) (bd : Vc 128) (W1 : Mat 128 256) (b1 : Vc 128)
    (W2 : Mat 1 128) (b2 : Vc 1) : Mat 1000000 1 := fun i =>
  edgeRow Wd bd W1 b1 W2 b2 (fun k => src (ix2 (i 0) k)) (fun k => dst (ix2 (i 0) k))

/-- A sum over 256 indices is the sum over the first 128 plus the sum over the last 128. -/
theorem sum_halves {M : Type*} [AddCommMonoid M] (f : Fin 256 → M) :
    ∑ k : Fin 256, f k = ∑ k : Fin 128, f (Fin.castAdd 128 k) + ∑ k : Fin 128, f (Fin.natAdd 128 k) :=
  Fin.sum_univ_add (a := 128) (b := 128) f

end Cert.EdgeSpec

end
-- ==== Proof.IdealPayload.lean ====
/-
  The kernel body's arithmetic at one row, on the extended reals.

  The body's one store and its nine loads each go through a whole buffer, so the output buffer is the payload itself,
  a pure function of the nine contents. At the ideal values a rounding to a narrower format and a cast to the same
  shape are the identity, a product onto the zero accumulator is the sum over the contracted axis, and a one-row
  matrix broadcast down the rows reads its column. Row `r` of the output is then, layer by layer, a function of rows
  `r` of the two blocks of endpoint rows and of the seven weight buffers (`rowK`, no hypothesis on the buffers):
    * each block's row times the projection buffer, plus its bias row, rectified;
    * the product and the difference of the two projected rows, each against its own buffer of the second layer, the
      two sums added, plus the bias row, rectified;
    * the hidden row against the output column, plus the bias, through the logistic.
  When the buffers hold the weights as the kernel lays them out (entry `(k, j)` of the projection buffer is `Wd (j, k)`,
  of the second layer's two buffers `W1 (j, k)` and `W1 (j, 128 + k)`, the biases as one-row matrices, the output weights
  as a column), `rowK` is the specification's `edgeRow`. No law of arithmetic is used: both sides are the same
  expression once the index maps and the buffer entries are read.
-/
import proofs.«169450_j89781996355945_2_alg».proof.Proof.IdealBody
import proofs.«169450_j89781996355945_2_alg».proof.Proof.Spec
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Cert.KernelIdeal.Body Idealize.ShloMosaic Idealize.ShloMosaic.ValueIdx

/-! ## A product onto the zero accumulator is the sum over the contracted axis -/

theorem mmSq_lhs0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

theorem mmSq_rhs1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- Rows times a square matrix: entry `(r, j)` is `∑ k, lhs (r, k) * rhs (k, j)`. -/
theorem mmSq_apply {φ₁ φ₂ : FTy} (lhs : FVec Ideal S4096x128 φ₁) (rhs : FVec Ideal S128x128 φ₂) (r : Fin 4096) (j : Fin 128) :
    matmul dot_S4096x128_S128x128_S4096x128_1_0_0_1_n_n none lhs rhs (constant (F := Ideal) S4096x128 .f32 0x00000000#32) (ix2 r j)
      = ∑ k : Fin 128, lhs (ix2 r k) * rhs (ix2 k j) := by
  simp only [matmul]
  rw [Ideal.matmul_constant_zero_apply,
    ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r j)
      ((ValueIdx.contrEquiv1 dot_S4096x128_S128x128_S4096x128_1_0_0_1_n_n 128 rfl rfl).symm k) = ix2 r k :=
    funext fun a => Fin.ext (by
      match a with
      | ⟨0, _⟩ => exact mmSq_lhs0 _ _
      | ⟨1, _⟩ => exact (dot_S4096x128_S128x128_S4096x128_1_0_0_1_n_n.lhsIdx_val_of_single rfl _ _).trans hk)
  have er : dot_S4096x128_S128x128_S4096x128_1_0_0_1_n_n.rhsIdx (ix2 r j)
      ((ValueIdx.contrEquiv1 dot_S4096x128_S128x128_S4096x128_1_0_0_1_n_n 128 rfl rfl).symm k) = ix2 k j :=
    funext fun a => Fin.ext (by
      match a with
      | ⟨0, _⟩ => exact (dot_S4096x128_S128x128_S4096x128_1_0_0_1_n_n.rhsIdx_val_of_single rfl _ _).trans hk
      | ⟨1, _⟩ => exact mmSq_rhs1 _ _)
  rw [el, er]

theorem mmCol_lhs0 (i : S4096x1.Idx) (q : dot_S4096x128_S128x1_S4096x1_1_0_0_1_n_n.contr.Idx) :
    (dot_S4096x128_S128x1_S4096x1_1_0_0_1_n_n.lhsIdx i q 0).val = (i 0).val := by
  unfold DotDims.lhsIdx
  rw [dif_neg (show ¬(0 : Fin S4096x128.rank) ∈ dot_S4096x128_S128x1_S4096x1_1_0_0_1_n_n.lhsBatch by decide),
    dif_pos (show (0 : Fin S4096x128.rank) ∈ dot_S4096x128_S128x1_S4096x1_1_0_0_1_n_n.lhsNonContracting by decide)]
  rfl

theorem mmCol_rhs1 (i : S4096x1.Idx) (q : dot_S4096x128_S128x1_S4096x1_1_0_0_1_n_n.contr.Idx) :
    (dot_S4096x128_S128x1_S4096x1_1_0_0_1_n_n.rhsIdx i q 1).val = (i 1).val := by
  unfold DotDims.rhsIdx
  rw [dif_neg (show ¬(1 : Fin S128x1.rank) ∈ dot_S4096x128_S128x1_S4096x1_1_0_0_1_n_n.rhsBatch by decide),
    dif_pos (show (1 : Fin S128x1.rank) ∈ dot_S4096x128_S128x1_S4096x1_1_0_0_1_n_n.rhsNonContracting by decide)]
  rfl

/-- Rows times one column: entry `(r, 0)` is `∑ k, lhs (r, k) * rhs (k, 0)`. -/
theorem mmCol_apply {φ₁ φ₂ : FTy} (lhs : FVec Ideal S4096x128 φ₁) (rhs : FVec Ideal S128x1 φ₂) (r : Fin 4096) :
    matmul dot_S4096x128_S128x1_S4096x1_1_0_0_1_n_n none lhs rhs (constant (F := Ideal) S4096x1 .f32 0x00000000#32) (ix2 r (0 : Fin 1))
      = ∑ k : Fin 128, lhs (ix2 r k) * rhs (ix2 k (0 : Fin 1)) := by
  simp only [matmul]
  rw [Ideal.matmul_constant_zero_apply,
    ← Equiv.sum_comp (ValueIdx.contrEquiv1 dot_S4096x128_S128x1_S4096x1_1_0_0_1_n_n 128 rfl rfl).symm]
  refine Finset.sum_congr rfl fun k _ => ?_
  have hk := ValueIdx.contrEquiv1_symm_val dot_S4096x128_S128x1_S4096x1_1_0_0_1_n_n 128 rfl rfl k
  have el : dot_S4096x128_S128x1_S4096x1_1_0_0_1_n_n.lhsIdx (ix2 r (0 : Fin 1))
      ((ValueIdx.contrEquiv1 dot_S4096x128_S128x1_S4096x1_1_0_0_1_n_n 128 rfl rfl).symm k) = ix2 r k :=
    funext fun a => Fin.ext (by
      match a with
      | ⟨0, _⟩ => exact mmCol_lhs0 _ _
      | ⟨1, _⟩ => exact (dot_S4096x128_S128x1_S4096x1_1_0_0_1_n_n.lhsIdx_val_of_single rfl _ _).trans hk)
  have er : dot_S4096x128_S128x1_S4096x1_1_0_0_1_n_n.rhsIdx (ix2 r (0 : Fin 1))
      ((ValueIdx.contrEquiv1 dot_S4096x128_S128x1_S4096x1_1_0_0_1_n_n 128 rfl rfl).symm k) = ix2 k (0 : Fin 1) :=
    funext fun a => Fin.ext (by
      match a with
      | ⟨0, _⟩ => exact (dot_S4096x128_S128x1_S4096x1_1_0_0_1_n_n.rhsIdx_val_of_single rfl _ _).trans hk
      | ⟨1, _⟩ => exact mmCol_rhs1 _ _)
  rw [el, er]

/-! ## A row broadcast down the rows reads its column -/

theorem bcastRow_apply {α : Type} (x : S1x128.Idx → α) (r : Fin 4096) (j : Fin 128) :
    broadcastTo S4096x128 x broadcasts_S1x128_S4096x128 (ix2 r j) = x (ix2 (0 : Fin 1) j) :=
  broadcastTo_apply x broadcasts_S1x128_S4096x128 (ix2 r j) (ix2 (0 : Fin 1) j) (fun a => match a with
    | ⟨0, _⟩ => by show 0 = if (1 : Nat) = 1 then 0 else _; rw [if_pos rfl]
    | ⟨1, _⟩ => by show j.val = if (128 : Nat) = 1 then 0 else j.val; rw [if_neg (by decide)])

theorem bcastOne_apply {α : Type} (x : S1x1.Idx → α) (r : Fin 4096) :
    broadcastTo S4096x1 x broadcasts_S1x1_S4096x1 (ix2 r (0 : Fin 1)) = x (ix2 (0 : Fin 1) (0 : Fin 1)) :=
  broadcastTo_apply x broadcasts_S1x1_S4096x1 (ix2 r (0 : Fin 1)) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])

/-! ## The edge scorer in the buffers' own layout -/

/-- One endpoint row against the projection buffer (entry `(k, j)`: input feature `k`, output feature `j`), plus the
    bias row, rectified. -/
def projK (x2 : Vec Ideal S128x128 .f32) (x3 : Vec Ideal S1x128 .f32) (s : Fin 128 → EReal) (j : Fin 128) : EReal :=
  max (∑ k : Fin 128, s k * (x2 (ix2 k j) : EReal) + (x3 (ix2 (0 : Fin 1) j) : EReal)) 0

/-- The product and the difference of the two projected rows, each against its own buffer of the second layer, the two
    sums added, plus the bias row, rectified. -/
def mixK (x4 x5 : Vec Ideal S128x128 .f32) (x6 : Vec Ideal S1x128 .f32) (x y : Fin 128 → EReal) (j : Fin 128) : EReal :=
  max ((∑ k : Fin 128, (x k * y k) * (x4 (ix2 k j) : EReal) + ∑ k : Fin 128, (x k - y k) * (x5 (ix2 k j) : EReal))
    + (x6 (ix2 (0 : Fin 1) j) : EReal)) 0

/-- One edge's probability from its two endpoint rows `s` and `d` and the seven weight buffers as they are held:
    `x j = max (∑ k, s k * x2 (k, j) + x3 (0, j)) 0`, `y` likewise from `d`,
    `h j = max ((∑ k, (x k * y k) * x4 (k, j) + ∑ k, (x k - y k) * x5 (k, j)) + x6 (0, j)) 0`, and
    `logistic (∑ k, h k * x7 (k, 0) + x8 (0, 0))`. -/
def rowK (s d : Fin 128 → EReal) (x2 : Vec Ideal S128x128 .f32) (x3 : Vec Ideal S1x128 .f32) (x4 x5 : Vec Ideal S128x128 .f32)
    (x6 : Vec Ideal S1x128 .f32) (x7 : Vec Ideal S128x1 .f32) (x8 : Vec Ideal S1x1 .f32) : EReal :=
  Ideal.logistic (∑ k : Fin 128, mixK x4 x5 x6 (projK x2 x3 s) (projK x2 x3 d) k * (x7 (ix2 k (0 : Fin 1)) : EReal)
    + (x8 (ix2 (0 : Fin 1) (0 : Fin 1)) : EReal))

/-! ## The hidden row -/

/-- Row `r` of the hidden block: each block of endpoint rows is projected and rectified, their product and difference
    go through the two buffers of the second layer, and the bias and the rectifier follow. -/
theorem pay2_rowK (v0 : Vec Ideal S128x128 .f32) (v3 : Vec Ideal S1x128 .f32) (v5 v7 : Vec Ideal S4096x128 .bf16)
    (v23 v26 : Vec Ideal S128x128 .f32) (v29 : Vec Ideal S1x128 .f32) (r : Fin 4096) (j : Fin 128) :
    k0_pay2 (F := Ideal) v0 v3 v5 v7 v23 v26 v29 (ix2 r j)
      = mixK v23 v26 v29 (projK v0 v3 (fun k => v5 (ix2 r k))) (projK v0 v3 (fun k => v7 (ix2 r k))) j := by
  unfold k0_pay2
  simp only [shapeCast_self, maximumf_apply, addf_apply, mulf_apply, subf_apply, truncf_apply, broadcast_apply,
    mmSq_apply, bcastRow_apply, Ideal.ofBits_def, Ideal.ofBits_zero_f32]
  rfl

/-! ## The probability column -/

/-- Row `r` of the output: the hidden row against the output column, the bias, and the logistic. -/
theorem pay1_rowK (v37 : FVec Ideal S4096x128 .f32) (v39 : Vec Ideal S128x1 .f32) (v42 : Vec Ideal S1x1 .f32) (r : Fin 4096) :
    k0_pay1 (F := Ideal) v37 v39 v42 (ix2 r (0 : Fin 1))
      = Ideal.logistic (∑ k : Fin 128, v37 (ix2 r k) * (v39 (ix2 k (0 : Fin 1)) : EReal)
          + (v42 (ix2 (0 : Fin 1) (0 : Fin 1)) : EReal)) := by
  unfold k0_pay1
  simp only [shapeCast_self, logistic, addf_apply, truncf_apply, mmCol_apply, bcastOne_apply, Ideal.logistic_def]

/-! ## The output buffer's row, in the buffers' layout and against the specification -/

/-- Every access of the body is a whole buffer: the one store leaves its payload, each load reads the contents. So row
    `r` of the output buffer is `rowK` of rows `r` of the two blocks of endpoint rows, whatever the seven weight
    buffers hold: it depends on no other row of the two blocks. -/
theorem edgeOut_rowK (x0 x1 : Vec Ideal S4096x128 .bf16) (x2 : Vec Ideal S128x128 .f32) (x3 : Vec Ideal S1x128 .f32)
    (x4 x5 : Vec Ideal S128x128 .f32) (x6 : Vec Ideal S1x128 .f32) (x7 : Vec Ideal S128x1 .f32) (x8 : Vec Ideal S1x1 .f32)
    (r : Fin 4096) :
    edgeOut (F := Ideal) x0 x1 x2 x3 x4 x5 x6 x7 x8 (ix2 r 0)
      = rowK (fun k => x0 (ix2 r k)) (fun k => x1 (ix2 r k)) x2 x3 x4 x5 x6 x7 x8 := by
  have hz : (![0, 0] : Fin 2 → Nat) = fun _ => 0 :=
    funext fun a => by match a with | ⟨0, _⟩ => rfl | ⟨1, _⟩ => rfl
  unfold edgeOut
  rw [View.canon_unit_zero hz]
  simp only [View.ld_unit_zero (S := S4096x128) hz, View.ld_unit_zero (S := S128x128) hz,
    View.ld_unit_zero (S := S1x128) hz, View.ld_unit_zero (S := S128x1) hz, View.ld_unit_zero (S := S1x1) hz]
  rw [pay1_rowK _ x7 x8 r]
  unfold rowK
  simp only [pay2_rowK]

/-- When the buffers hold the weights as the kernel lays them out — the projection and the two halves of the second
    layer transposed, the biases as one-row matrices, the output weights as a column — `rowK` is the specification's
    edge scorer: the two are the same expression once each buffer entry is read as its weight. -/
theorem rowK_eq_edgeRow (Wd : Cert.EdgeSpec.Mat 128 128) (bd : Cert.EdgeSpec.Vc 128) (W1 : Cert.EdgeSpec.Mat 128 256) (b1 : Cert.EdgeSpec.Vc 128) (W2 : Cert.EdgeSpec.Mat 1 128) (b2 : Cert.EdgeSpec.Vc 1)
    (x2 : Vec Ideal S128x128 .f32) (x3 : Vec Ideal S1x128 .f32) (x4 x5 : Vec Ideal S128x128 .f32) (x6 : Vec Ideal S1x128 .f32) (x7 : Vec Ideal S128x1 .f32) (x8 : Vec Ideal S1x1 .f32)
    (h2 : ∀ k j : Fin 128, x2 (ix2 k j) = Wd (ix2 j k))
    (h3 : ∀ j : Fin 128, x3 (ix2 0 j) = bd (ix1 j))
    (h4 : ∀ k j : Fin 128, x4 (ix2 k j) = W1 (ix2 j (Fin.castAdd 128 k)))
    (h5 : ∀ k j : Fin 128, x5 (ix2 k j) = W1 (ix2 j (Fin.natAdd 128 k)))
    (h6 : ∀ j : Fin 128, x6 (ix2 0 j) = b1 (ix1 j))
    (h7 : ∀ k : Fin 128, x7 (ix2 k 0) = W2 (ix2 0 k))
    (h8 : x8 (ix2 0 0) = b2 (ix1 0))
    (s d : Fin 128 → EReal) :
    rowK s d x2 x3 x4 x5 x6 x7 x8 = Cert.EdgeSpec.edgeRow Wd bd W1 b1 W2 b2 s d := by
  unfold rowK mixK projK Cert.EdgeSpec.edgeRow Cert.EdgeSpec.score Cert.EdgeSpec.mix Cert.EdgeSpec.proj
  simp only [h2, h3, h4, h5, h6, h7, h8]

/-- Row `r` of the output buffer is the specification's edge scorer of rows `r` of the two blocks of endpoint rows, when
    the weight buffers hold the specification's weights in the kernel's layout. -/
theorem edgeOut_row (Wd : Cert.EdgeSpec.Mat 128 128) (bd : Cert.EdgeSpec.Vc 128) (W1 : Cert.EdgeSpec.Mat 128 256) (b1 : Cert.EdgeSpec.Vc 128) (W2 : Cert.EdgeSpec.Mat 1 128) (b2 : Cert.EdgeSpec.Vc 1)
    (x0 x1 : Vec Ideal S4096x128 .bf16) (x2 : Vec Ideal S128x128 .f32) (x3 : Vec Ideal S1x128 .f32) (x4 x5 : Vec Ideal S128x128 .f32) (x6 : Vec Ideal S1x128 .f32) (x7 : Vec Ideal S128x1 .f32) (x8 : Vec Ideal S1x1 .f32)
    (h2 : ∀ k j : Fin 128, x2 (ix2 k j) = Wd (ix2 j k))
    (h3 : ∀ j : Fin 128, x3 (ix2 0 j) = bd (ix1 j))
    (h4 : ∀ k j : Fin 128, x4 (ix2 k j) = W1 (ix2 j (Fin.castAdd 128 k)))
    (h5 : ∀ k j : Fin 128, x5 (ix2 k j) = W1 (ix2 j (Fin.natAdd 128 k)))
    (h6 : ∀ j : Fin 128, x6 (ix2 0 j) = b1 (ix1 j))
    (h7 : ∀ k : Fin 128, x7 (ix2 k 0) = W2 (ix2 0 k))
    (h8 : x8 (ix2 0 0) = b2 (ix1 0))
    (r : Fin 4096) :
    edgeOut (F := Ideal) x0 x1 x2 x3 x4 x5 x6 x7 x8 (ix2 r 0)
      = Cert.EdgeSpec.edgeRow Wd bd W1 b1 W2 b2 (fun k => x0 (ix2 r k)) (fun k => x1 (ix2 r k)) :=
  (edgeOut_rowK x0 x1 x2 x3 x4 x5 x6 x7 x8 r).trans
    (rowK_eq_edgeRow Wd bd W1 b1 W2 b2 x2 x3 x4 x5 x6 x7 x8 h2 h3 h4 h5 h6 h7 h8 _ _)

end Cert.KernelIdeal.Payload

end
-- ==== Proof.IdealValue.lean ====
/-
  The result array of the idealized kernel, index by index.

  At grid point `t` the body leaves in the output buffer, on each row `r` the write-back moves, the probability of edge
  `4096 t + r`: the matrix products act row by row, so that row is `edgeRow` of rows `r` of the two row buffers, which
  the fetches filled with rows `4096 t + r` of the gathered arrays, and of the weights as the host operations laid
  them out (the transposes and the two halves of the second layer undone index by index). In particular the rows
  moved do not depend on the rows of the row buffers past the arrays' end. The 245 write-backs cover the
  1,000,000 rows (row `e` is in block `e / 4096`), so the result array ends at `edgeProb` of the gathered arrays and
  the weight arguments.
-/
import proofs.«169450_j89781996355945_2_alg».proof.Proof.IdealWindows
import proofs.«169450_j89781996355945_2_alg».proof.Proof.IdealRun
import proofs.«169450_j89781996355945_2_alg».proof.Proof.IdealPayload

set_option maxRecDepth 16384

noncomputable section

namespace Cert.KernelIdeal.Body

open Cert.KernelIdeal Cert.KernelIdeal.Gen Cert.KernelIdeal.Payload Cert.EdgeSpec
open Idealize.ShloMosaic Idealize.ShloMosaic.TcCoe Idealize.ShloMosaic.ValueIdx
open Idealize.SL Idealize.SL.Sem
open Idealize.ShloMosaic.Pipeline (Dat Cfg Window)

/-! ## Rows the transfers move -/

/-- An index of the part of the output the write-back at `t` moves is a row below the cut, column 0. -/
theorem out_row (t : Fin cfg0.N) (j : (win0_9.xblock (grid0.coords t)).Idx) :
    ∃ r : Fin 4096, r.val = (j 0).val ∧ r.val < win0_9.xsize (grid0.coords t) (0 : Fin 2) ∧ (j 1).val = 0
      ∧ win0_9.xinj (grid0.coords t) j = ix2 r (0 : Fin 1) := by
  obtain ⟨-, -, -, -, -, -, -, -, -, -, c9, -⟩ := moving_facts t
  have hj0 : (j 0).val < win0_9.xsize (grid0.coords t) (0 : Fin 2) := (j 0).isLt
  have hj1 : (j 1).val < win0_9.xsize (grid0.coords t) (1 : Fin 2) := (j 1).isLt
  have hle : win0_9.xsize (grid0.coords t) (0 : Fin 2) ≤ 4096 := win0_9.xsize_le (grid0.coords t) (0 : Fin 2)
  have h1 : (j 1).val = 0 := by omega
  refine ⟨⟨(j 0).val, by omega⟩, rfl, hj0, h1, funext fun a => Fin.ext ?_⟩
  match a with
  | ⟨0, _⟩ => rfl
  | ⟨1, _⟩ => exact h1

/-- A row below the cut is in the part of a row buffer the fetch fills, at every column. -/
theorem movedA (t : Fin cfg0.N) (r : Fin 4096) (k : Fin 128) (hr : r.val < win0_9.xsize (grid0.coords t) (0 : Fin 2)) :
    win0_0.moved (grid0.coords t) (ix2 r k) = true := by
  obtain ⟨-, -, -, -, -, -, x0, -, x1, -, -, -⟩ := moving_facts t
  rw [Window.moved_iff]; intro a
  match a with
  | ⟨0, _⟩ => show r.val < win0_0.xsize (grid0.coords t) (0 : Fin 2); omega
  | ⟨1, _⟩ => show k.val < win0_0.xsize (grid0.coords t) (1 : Fin 2); have := k.isLt; omega
theorem movedB (t : Fin cfg0.N) (r : Fin 4096) (k : Fin 128) (hr : r.val < win0_9.xsize (grid0.coords t) (0 : Fin 2)) :
    win0_1.moved (grid0.coords t) (ix2 r k) = true := by
  obtain ⟨-, -, -, -, -, -, -, x0, -, x1, -, -⟩ := moving_facts t
  rw [Window.moved_iff]; intro a
  match a with
  | ⟨0, _⟩ => show r.val < win0_1.xsize (grid0.coords t) (0 : Fin 2); omega
  | ⟨1, _⟩ => show k.val < win0_1.xsize (grid0.coords t) (1 : Fin 2); have := k.isLt; omega

/-- Two contents of a row buffer that agree on the part moved agree on every row below the cut. -/
theorem cutA_row (t : Fin cfg0.N) (a a' : Vec Ideal S4096x128 .bf16)
    (h : win0_0.cut (grid0.coords t) a = win0_0.cut (grid0.coords t) a') (r : Fin 4096) (k : Fin 128)
    (hr : r.val < win0_9.xsize (grid0.coords t) (0 : Fin 2)) : a (ix2 r k) = a' (ix2 r k) := by
  have hmv := movedA t r k hr
  calc a (ix2 r k) = win0_0.fill (grid0.coords t) a (win0_0.cut (grid0.coords t) a) (ix2 r k) := by rw [Window.fill_cut]
    _ = win0_0.fill (grid0.coords t) a' (win0_0.cut (grid0.coords t) a') (ix2 r k) := by
        rw [h]; unfold Window.fill; rw [dif_pos hmv, dif_pos hmv]
    _ = a' (ix2 r k) := by rw [Window.fill_cut]
theorem cutB_row (t : Fin cfg0.N) (b b' : Vec Ideal S4096x128 .bf16)
    (h : win0_1.cut (grid0.coords t) b = win0_1.cut (grid0.coords t) b') (r : Fin 4096) (k : Fin 128)
    (hr : r.val < win0_9.xsize (grid0.coords t) (0 : Fin 2)) : b (ix2 r k) = b' (ix2 r k) := by
  have hmv := movedB t r k hr
  calc b (ix2 r k) = win0_1.fill (grid0.coords t) b (win0_1.cut (grid0.coords t) b) (ix2 r k) := by rw [Window.fill_cut]
    _ = win0_1.fill (grid0.coords t) b' (win0_1.cut (grid0.coords t) b') (ix2 r k) := by
        rw [h]; unfold Window.fill; rw [dif_pos hmv, dif_pos hmv]
    _ = b' (ix2 r k) := by rw [Window.fill_cut]

/-- On the extended reals a row of the output is a function of the same rows of the two row buffers: the rows moved
    do not depend on rows past the cut. -/
theorem rowLocal_ideal : RowLocal Ideal := by
  intro t a a' b b' x2 x3 x4 x5 x6 x7 x8 ha hb
  funext j
  obtain ⟨r, -, hr, -, hx⟩ := out_row t j
  show edgeOut (F := Ideal) a b x2 x3 x4 x5 x6 x7 x8 (win0_9.xinj (grid0.coords t) j)
    = edgeOut (F := Ideal) a' b' x2 x3 x4 x5 x6 x7 x8 (win0_9.xinj (grid0.coords t) j)
  rw [hx, edgeOut_rowK, edgeOut_rowK]
  have eA : (fun k => a (ix2 r k)) = fun k => a' (ix2 r k) := funext fun k => cutA_row t a a' ha r k hr
  have eB : (fun k => b (ix2 r k)) = fun k => b' (ix2 r k) := funext fun k => cutB_row t b b' hb r k hr
  rw [eA, eB]

/-! ## The result array -/

variable (m : (ℓ : Loc nD τ sig) → Buf (Elt Ideal) ℓ) (ρ : Dev nD → PrngReg)

/-- The result: every edge's probability from the gathered endpoint rows, as the region finds them, and the weight
    arguments as launched. -/
def result (c : Dev nD) : S1000000x1.Idx → EReal :=
  edgeProb (V m c main_v11 : S1000000x128.Idx → Elt Ideal .bf16) (V m c main_v18 : S1000000x128.Idx → Elt Ideal .bf16)
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- What point `t` writes back is block `t` of `result`. -/
theorem flushed_eq (c : Dev nD) (t : Fin cfg0.N) :
    (dats m 0 c).flushed 9 t = ((cfg0.win 9).blk t).view.read (Elt Ideal) (result m c) := by
  show (cfg0.win 9).cut (grid0.coords t) ((dats m 0 c).after 9 t) = _
  rw [after_9]
  funext j
  obtain ⟨r, hrj, hr, hj1, hx⟩ := out_row t j
  obtain ⟨-, -, -, -, e0, e1, -⟩ := moving_facts t
  show outAt m c t (win0_9.xinj (grid0.coords t) j) = result m c (((cfg0.win 9).blk t).view.emb j)
  have hemb : ((cfg0.win 9).blk t).view.emb j
      = ix2 (⟨t.val * 4096 + r.val, row_lt t r.val hr⟩ : Fin 1000000) (0 : Fin 1) := by
    funext a; apply Fin.ext
    match a with
    | ⟨0, _⟩ => show win0_9.index t (0 : Fin 2) * 4096 + 1 * (j 0).val = t.val * 4096 + r.val; omega
    | ⟨1, _⟩ => show win0_9.index t (1 : Fin 2) * 1 + 1 * (j 1).val = 0; omega
  rw [hx, hemb]
  unfold outAt
  rw [edgeOut_row (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (rowsA m c t pad) (rowsB m c t pad) (iblk m c 2 t) (iblk m c 3 t) (iblk m c 4 t) (iblk m c 5 t) (iblk m c 6 t) (iblk m c 7 t) (iblk m c 8 t)
    (fun k j => (blk2_apply m c t k j).trans (wd_at m c k j))
    (fun j => (blk3_apply m c t j).trans (bd_at m c j))
    (fun k j => (blk4_apply m c t k j).trans (w1a_at m c k j))
    (fun k j => (blk5_apply m c t k j).trans (w1b_at m c k j))
    (fun j => (blk6_apply m c t j).trans (b1_at m c j))
    (fun k => (blk7_apply m c t k).trans (w2_at m c k))
    ((blk8_apply m c t).trans (b2_at m c)) r]
  unfold result edgeProb
  exact congrArg₂ (edgeRow _ _ _ _ _ _)
    (funext fun k => rowsA_apply m c t pad r k hr) (funext fun k => rowsB_apply m c t pad r k hr)

/-- An index of the result is in point `t`'s block iff each coordinate is in the block's part inside the array. -/
theorem mem_blk9 (t : Fin cfg0.N) (i : S1000000x1.Idx) :
    i ∈ ((cfg0.win 9).blk t).view.set ↔ ∀ a : Fin 2, win0_9.index t a * S4096x1.size a ≤ (i a).val
      ∧ (i a).val < win0_9.index t a * S4096x1.size a + win0_9.xsize (grid0.coords t) a := by
  show i ∈ ((View.whole main_v27).slice (win0_9.rect t)).set ↔ _
  rw [View.set_slice_whole, Rect.mem_set_unit]
  exact Iff.rfl

/-- Every row of the result is in the block of the point `row / 4096`, which writes it back. -/
theorem cover9 (i : S1000000x1.Idx) :
    ∃ t : Fin cfg0.N, (cfg0.win 9).flush t = true ∧ i ∈ ((cfg0.win 9).blk t).view.set := by
  have hi0 : (i 0).val < 1000000 := (i 0).isLt
  have hi1 : (i 1).val < 1 := (i 1).isLt
  have hq : (i 0).val / 4096 < 245 := by omega
  obtain ⟨t, ht⟩ : ∃ t : Fin cfg0.N, t.val = (i 0).val / 4096 :=
    ⟨⟨(i 0).val / 4096, by rw [show cfg0.N = 245 from N_0]; exact hq⟩, rfl⟩
  have hlo : t.val * 4096 ≤ (i 0).val := by rw [ht]; exact Nat.div_mul_le_self _ _
  have hhi : (i 0).val < t.val * 4096 + 4096 := by
    rw [ht]; have := Nat.lt_div_mul_add (a := (i 0).val) (b := 4096) (by decide); omega
  refine ⟨t, flush0_9 t, ?_⟩
  rw [mem_blk9]
  obtain ⟨-, -, -, -, e0, e1, -, -, -, -, c9, hx⟩ := moving_facts t
  have hxs : (i 0).val < t.val * 4096 + win0_9.xsize (grid0.coords t) (0 : Fin 2) := by
    rw [hx]; exact lt_min hhi hi0
  intro a
  match a with
  | ⟨0, _⟩ =>
    show win0_9.index t (0 : Fin 2) * 4096 ≤ (i 0).val
      ∧ (i 0).val < win0_9.index t (0 : Fin 2) * 4096 + win0_9.xsize (grid0.coords t) (0 : Fin 2)
    rw [e0]; exact ⟨hlo, hxs⟩
  | ⟨1, _⟩ =>
    show win0_9.index t (1 : Fin 2) * 1 ≤ (i 1).val
      ∧ (i 1).val < win0_9.index t (1 : Fin 2) * 1 + win0_9.xsize (grid0.coords t) (1 : Fin 2)
    rw [e1, c9]; exact ⟨Nat.zero_le _, by omega⟩

/-- The result array after the run. -/
theorem final9 (c : Dev nD) : (dats m 0 c).arrAt 9 cfg0.N = result m c :=
  (dats m 0 c).arrAt_eq_of_cover 9 (result m c) (fun t _ => flushed_eq m c t) cover9

/-- The run, read: the result array ends at `result` and the eight arguments as they started. -/
theorem run_value :
    θ_run defs (onTc (τ := τ) (main (F := Ideal))) ⟨m, fun _ => 0, ρ⟩ (fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1 9).trans (final9 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_named m ρ rowLocal_ideal)

end Cert.KernelIdeal.Body

end
-- ==== Proof.RefValue.lean ====
/-
  The reference program's result is the edge scorer of the specification, row by row, on the extended reals.

  Row `e` of the result depends on rows `e` of the two gathered endpoint arrays only, which stay opaque here. Layer by
  layer, at a row `e` and a column `j`:
    * the projection: a contraction over 128 against the transposed weights, the bias broadcast along the rows, and
      the maximum with a broadcast zero, is `proj` of the gathered row (once for the sources, once for the destinations);
    * the joined features: column `k < 128` of the concatenation is the product's column `k`, column `128 + k` is the
      difference's column `k`;
    * the second layer: the contraction over 256 is the sum over the first 128 columns plus the sum over the last 128
      (`sum_halves`, a law of any commutative monoid), which with the bias and the rectifier is `mix`;
    * the score: a contraction over 128, the bias, and `1 / (1 + exp (-z))`, which is the logistic of `z` by definition.
  No finiteness and no distributivity is used: each step is a reading of an index or an unfolding of a definition.
-/
import proofs.«169450_j89781996355945_2_alg».proof.Proof.Gen.ReferenceIdeal.Read
import proofs.«169450_j89781996355945_2_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.EdgeSpec

/-! ## The index maps of the first projection, on a row `e` and a column `j` -/

theorem lidx19 (e : Fin 1000000) (j k : Fin 128) : lidx_main_v19 (ix2 e j) k = ix2 e k :=
  funext fun a => Fin.ext (by match a with | ⟨0, _⟩ => rfl | ⟨1, _⟩ => rfl)

theorem ridx19 (e : Fin 1000000) (j k : Fin 128) : idx_main_v18 (ridx_main_v19 (ix2 e j) k) = ix2 j k :=
  funext fun a => Fin.ext (by match a with | ⟨0, _⟩ => rfl | ⟨1, _⟩ => rfl)

theorem bidx21 (e : Fin 1000000) (j : Fin 128) : idx_main_v20 (idx_main_v21 (ix2 e j)) = ix1 j :=
  funext fun a => Fin.ext (by match a with | ⟨0, _⟩ => rfl)

/-- The rectified projection of the gathered source rows. -/
theorem proj_src (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (e : Fin 1000000) (j : Fin 128) :
    val_main_v23 (F := Ideal) x0 x1 x2 x3 (ix2 e j)
      = proj x2 x3 (fun k => val_main_v8 (F := Ideal) x0 x1 (ix2 e k)) j := by
  rw [val_main_v23_apply, val_main_v22_apply, val_main_v19_apply, val_main_v21_apply, val_main_v20_apply,
    val_main_call0_v0_apply, val_main_call0_cst_apply]
  simp only [val_main_v18_apply, lidx19, ridx19, bidx21, Ideal.maximumf_def, Ideal.addf_def, Ideal.ofBits_def,
    Ideal.ofBits_zero_f32]
  rfl

theorem lidx25 (e : Fin 1000000) (j k : Fin 128) : lidx_main_v25 (ix2 e j) k = ix2 e k :=
  funext fun a => Fin.ext (by match a with | ⟨0, _⟩ => rfl | ⟨1, _⟩ => rfl)

theorem ridx25 (e : Fin 1000000) (j k : Fin 128) : idx_main_v24 (ridx_main_v25 (ix2 e j) k) = ix2 j k :=
  funext fun a => Fin.ext (by match a with | ⟨0, _⟩ => rfl | ⟨1, _⟩ => rfl)

theorem bidx27 (e : Fin 1000000) (j : Fin 128) : idx_main_v26 (idx_main_v27 (ix2 e j)) = ix1 j :=
  funext fun a => Fin.ext (by match a with | ⟨0, _⟩ => rfl)

/-- The rectified projection of the gathered destination rows: the same weights and bias. -/
theorem proj_dst (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (e : Fin 1000000) (j : Fin 128) :
    val_main_v29 (F := Ideal) x0 x1 x2 x3 (ix2 e j)
      = proj x2 x3 (fun k => val_main_v17 (F := Ideal) x0 x1 (ix2 e k)) j := by
  rw [val_main_v29_apply, val_main_v28_apply, val_main_v25_apply, val_main_v27_apply, val_main_v26_apply,
    val_main_call1_v0_apply, val_main_call1_cst_apply]
  simp only [val_main_v24_apply, lidx25, ridx25, bidx27, Ideal.maximumf_def, Ideal.addf_def, Ideal.ofBits_def,
    Ideal.ofBits_zero_f32]
  rfl

/-! ## The joined features: column `k` of the first 128 is the product, column `128 + k` the difference -/

theorem cat_left (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (e : Fin 1000000) (k : Fin 128) :
    val_main_v32 (F := Ideal) x0 x1 x2 x3 (ix2 e (Fin.castAdd 128 k : Fin 256))
      = val_main_v30 (F := Ideal) x0 x1 x2 x3 (ix2 e k) := by
  unfold val_main_v32
  exact concatenate_pair_apply_left 1 _ _ concatenates_S1000000x128_S1000000x128_S1000000x256_d1
    (ix2 e (Fin.castAdd 128 k : Fin 256)) rfl (ix2 e k) (fun b => match b with | ⟨0, _⟩ => rfl | ⟨1, _⟩ => rfl)

theorem cat_right (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (e : Fin 1000000) (k : Fin 128) :
    val_main_v32 (F := Ideal) x0 x1 x2 x3 (ix2 e (Fin.natAdd 128 k : Fin 256))
      = val_main_v31 (F := Ideal) x0 x1 x2 x3 (ix2 e k) := by
  unfold val_main_v32
  exact concatenate_pair_apply_right 1 _ _ concatenates_S1000000x128_S1000000x128_S1000000x256_d1
    (ix2 e (Fin.natAdd 128 k : Fin 256)) rfl rfl (ix2 e k)
    (fun b hb => match b, hb with | ⟨0, _⟩, _ => rfl | ⟨1, _⟩, hb => absurd rfl hb)
    (by show k.val + 128 = 128 + k.val; omega)

/-! ## The second layer on the joined features -/

theorem lidx34 (e : Fin 1000000) (j : Fin 128) (k : Fin 256) : lidx_main_v34 (ix2 e j) k = ix2 e k :=
  funext fun a => Fin.ext (by match a with | ⟨0, _⟩ => rfl | ⟨1, _⟩ => rfl)

theorem ridx34 (e : Fin 1000000) (j : Fin 128) (k : Fin 256) : idx_main_v33 (ridx_main_v34 (ix2 e j) k) = ix2 j k :=
  funext fun a => Fin.ext (by match a with | ⟨0, _⟩ => rfl | ⟨1, _⟩ => rfl)

theorem bidx36 (e : Fin 1000000) (j : Fin 128) : idx_main_v35 (idx_main_v36 (ix2 e j)) = ix1 j :=
  funext fun a => Fin.ext (by match a with | ⟨0, _⟩ => rfl)

/-- The hidden row: the 256-term contraction splits into its product half and its difference half. -/
theorem mix_row (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 : (⟨S128x256, .f32⟩ : BufTy).Contents (Elt Ideal)) (x5 : (⟨S128, .f32⟩ : BufTy).Contents (Elt Ideal))
    (e : Fin 1000000) (j : Fin 128) :
    val_main_v38 (F := Ideal) x0 x1 x2 x3 x4 x5 (ix2 e j)
      = mix x4 x5 (fun k => val_main_v23 (F := Ideal) x0 x1 x2 x3 (ix2 e k))
          (fun k => val_main_v29 (F := Ideal) x0 x1 x2 x3 (ix2 e k)) j := by
  rw [val_main_v38_apply, val_main_v37_apply, val_main_v34_apply, val_main_v36_apply, val_main_v35_apply,
    val_main_call2_v0_apply, val_main_call2_cst_apply, sum_halves]
  simp only [val_main_v33_apply, lidx34, ridx34, bidx36, cat_left, cat_right, val_main_v30_apply, val_main_v31_apply,
    Ideal.maximumf_def, Ideal.addf_def, Ideal.mulf_def, Ideal.subf_def, Ideal.ofBits_def, Ideal.ofBits_zero_f32]
  rfl

/-! ## The score and its logistic -/

theorem lidx40 (e : Fin 1000000) (k : Fin 128) : lidx_main_v40 (ix2 e (0 : Fin 1)) k = ix2 e k :=
  funext fun a => Fin.ext (by match a with | ⟨0, _⟩ => rfl | ⟨1, _⟩ => rfl)

theorem ridx40 (e : Fin 1000000) (k : Fin 128) :
    idx_main_v39 (ridx_main_v40 (ix2 e (0 : Fin 1)) k) = ix2 (0 : Fin 1) k :=
  funext fun a => Fin.ext (by match a with | ⟨0, _⟩ => rfl | ⟨1, _⟩ => rfl)

theorem bidx42 (e : Fin 1000000) : idx_main_v41 (idx_main_v42 (ix2 e (0 : Fin 1))) = ix1 (0 : Fin 1) :=
  funext fun a => Fin.ext (by match a with | ⟨0, _⟩ => rfl)

/-- The edge's probability: `1 / (1 + exp (-z))` is the logistic of the score `z`. -/
theorem score_row (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 : (⟨S128x256, .f32⟩ : BufTy).Contents (Elt Ideal)) (x5 : (⟨S128, .f32⟩ : BufTy).Contents (Elt Ideal))
    (x6 : (⟨S1x128, .f32⟩ : BufTy).Contents (Elt Ideal)) (x7 : (⟨S1, .f32⟩ : BufTy).Contents (Elt Ideal))
    (e : Fin 1000000) :
    val_main_v49 (F := Ideal) x0 x1 x2 x3 x4 x5 x6 x7 (ix2 e (0 : Fin 1))
      = score x6 x7 (fun k => val_main_v38 (F := Ideal) x0 x1 x2 x3 x4 x5 (ix2 e k)) := by
  rw [val_main_v49_apply, val_main_v48_apply, val_main_cst_3_apply, val_main_v47_apply, val_main_v46_apply,
    val_main_cst_apply, val_main_v45_apply, val_main_v44_apply, val_main_v43_apply, val_main_v40_apply,
    val_main_v42_apply, val_main_v41_apply]
  simp only [val_main_v39_apply, lidx40, ridx40, bidx42, Ideal.hostDivf_def, Ideal.addf_def, Ideal.hostUnary_exp_def,
    Ideal.hostNegf_def, Ideal.negf_def, Ideal.ofBits_def, Ideal.ofBits_one_f32]
  rfl

/-! ## The reference's result is the specification -/

theorem ref_is_spec (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 : (⟨S128x256, .f32⟩ : BufTy).Contents (Elt Ideal)) (x5 : (⟨S128, .f32⟩ : BufTy).Contents (Elt Ideal))
    (x6 : (⟨S1x128, .f32⟩ : BufTy).Contents (Elt Ideal)) (x7 : (⟨S1, .f32⟩ : BufTy).Contents (Elt Ideal)) :
    Read.val_main_v49 (F := Ideal) x0 x1 x2 x3 x4 x5 x6 x7
      = Cert.EdgeSpec.edgeProb (Read.val_main_v8 (F := Ideal) x0 x1) (Read.val_main_v17 (F := Ideal) x0 x1) x2 x3 x4 x5 x6 x7 := by
  funext i
  obtain ⟨e, rfl⟩ : ∃ e : Fin 1000000, i = ix2 e (0 : Fin 1) :=
    ⟨i 0, (eq_ix2 i).trans (congrArg (ix2 (i 0)) (Subsingleton.elim (α := Fin 1) (i 1) 0))⟩
  rw [score_row]
  have hx : (fun k : Fin 128 => val_main_v23 (F := Ideal) x0 x1 x2 x3 (ix2 e k))
      = proj x2 x3 (fun k => val_main_v8 (F := Ideal) x0 x1 (ix2 e k)) := funext fun j => proj_src x0 x1 x2 x3 e j
  have hy : (fun k : Fin 128 => val_main_v29 (F := Ideal) x0 x1 x2 x3 (ix2 e k))
      = proj x2 x3 (fun k => val_main_v17 (F := Ideal) x0 x1 (ix2 e k)) := funext fun j => proj_dst x0 x1 x2 x3 e j
  have hh : (fun k : Fin 128 => val_main_v38 (F := Ideal) x0 x1 x2 x3 x4 x5 (ix2 e k))
      = mix x4 x5 (proj x2 x3 (fun k => val_main_v8 (F := Ideal) x0 x1 (ix2 e k)))
          (proj x2 x3 (fun k => val_main_v17 (F := Ideal) x0 x1 (ix2 e k))) :=
    funext fun j => by rw [mix_row, hx, hy]
  rw [hh]
  rfl

end Cert.ReferenceIdeal.RefValue

end
-- ==== Proof.Bridge.lean ====
/-
  The two programs gather the same endpoint rows.

  Before its pipeline the kernel's program computes, for each row of the edge list, the array of gathered node features:
  the row is sliced out, flattened, its negative entries shifted by the number of nodes (compare with zero, add 100000,
  select), laid out as a column of start indices, and the rows of the node features at those indices are gathered. The
  reference computes the same thing operation for operation. The one difference is that the kernel's program first
  rounds the node features to the narrower float format, and at the ideal values that rounding is the identity; the
  shape relations and the gather's dimension record that each program states for itself have the same fields. So the
  array the pipeline's first window reads is the reference's gathered source array, and the second window's is the
  gathered destination array — as whole arrays, without reading inside the gather.
-/
import proofs.«169450_j89781996355945_2_alg».proof.Proof.IdealData
import proofs.«169450_j89781996355945_2_alg».proof.Proof.Gen.ReferenceIdeal.Read
import Idealize.ShloMosaic.Lib.StableHlo.Run

noncomputable section

namespace Cert.Bridge

open Cert.KernelIdeal Cert.KernelIdeal.Gen
open Idealize.ShloMosaic Idealize.ShloMosaic.TcCoe Idealize.SL.Sem Idealize.ShloMosaic.StableHlo

/-! ## The gathered endpoint rows are the same arrays in both programs -/

set_option maxHeartbeats 400000 in
/-- The gathered source rows. Both programs slice row 0 of the edge list, flatten it, add the number of nodes to the
    negative entries, and gather those rows of the node features; the kernel's program first rounds the features to
    the narrower format, which at the ideal values is the identity. -/
theorem src_eq (m : (ℓ : Loc nD τ sig) → Buf (Elt Ideal) ℓ) (c : Dev nD) :
    (V m c main_v11 : S1000000x128.Idx → Elt Ideal .bf16)
      = Cert.ReferenceIdeal.Read.val_main_v8 (F := Ideal) (m ((c : Thread nD τ).loc main_arg0))
          (m ((c : Thread nD τ).loc main_arg1)) := by
  unfold Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_c Cert.ReferenceIdeal.Read.val_main_c_0
  dsimp only [V, hostOps0]
  after_results
  rfl

set_option maxHeartbeats 400000 in
/-- The gathered destination rows: the same from row 1 of the edge list. -/
theorem dst_eq (m : (ℓ : Loc nD τ sig) → Buf (Elt Ideal) ℓ) (c : Dev nD) :
    (V m c main_v18 : S1000000x128.Idx → Elt Ideal .bf16)
      = Cert.ReferenceIdeal.Read.val_main_v17 (F := Ideal) (m ((c : Thread nD τ).loc main_arg0))
          (m ((c : Thread nD τ).loc main_arg1)) := by
  unfold Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_c_1 Cert.ReferenceIdeal.Read.val_main_c_2
  dsimp only [V, hostOps0]
  after_results
  rfl

end Cert.Bridge

end
-- ==== Proof.lean ====
/-
  The edge-probability network, kernel against reference, on the extended reals.

  Both programs gather the two endpoint rows of each of 1,000,000 edges from the node table (the kernel after
  converting the table to a narrower float format, which on the extended reals changes nothing), apply one shared
  linear projection and a rectifier to each, form the products and the differences of the two projected rows, apply a
  second linear layer and a rectifier, and end with a linear score and the logistic function. They differ in three
  ways, none of which changes a value: the kernel works on blocks of 4096 edges, the last block only partly inside
  the arrays (its rows past the end are never written back, and rows inside do not depend on them, a matrix product
  acting row by row); the kernel multiplies the products and the differences by the two halves of the second layer's
  matrix and adds, where the reference joins them into 256 columns and multiplies once (a sum over 256 indices is the
  sum of its two halves); and the kernel's one logistic operation is the reference's 1 / (1 + exp (−z)) by definition.
  Only commutativity and associativity of addition are used, so the finiteness of the inputs is never opened.

  The frames: each kernel program's body reads nine buffers whole and writes one whole, so every execution runs to
  the end without a fault and touches no argument; for the word-level program nothing is said of the result array.
  The reference is a straight line of host operations. The idealization rewrote no operation.
-/
import proofs.«169450_j89781996355945_2_alg».proof.Defs
import proofs.«169450_j89781996355945_2_alg».proof.Proof.Gen.Kernel
import proofs.«169450_j89781996355945_2_alg».proof.Proof.Gen.KernelIdeal
import proofs.«169450_j89781996355945_2_alg».proof.Proof.Gen.ReferenceIdeal
import proofs.«169450_j89781996355945_2_alg».proof.Proof.Gen.Pre_finite_inputs
import proofs.«169450_j89781996355945_2_alg».proof.Proof.Gen.ReferenceIdeal.Run
import proofs.«169450_j89781996355945_2_alg».proof.Proof.Gen.ReferenceIdeal.Read
import proofs.«169450_j89781996355945_2_alg».proof.Proof.BitsRun
import proofs.«169450_j89781996355945_2_alg».proof.Proof.IdealValue
import proofs.«169450_j89781996355945_2_alg».proof.Proof.RefValue
import proofs.«169450_j89781996355945_2_alg».proof.Proof.Bridge
import Idealize.ShloMosaic.Adequacy
import Idealize.ShloMosaic.Init

noncomputable section

namespace Cert.Proof

open Idealize.ShloMosaic Idealize.SL.Sem

/-- The word-level kernel runs to the end and leaves its arguments: the run that says nothing of the result. -/
theorem frame_kernel : Cert.frame_Kernel := fun m ρ _ => Cert.Kernel.Body.frame_forget (F := Bits) m ρ

/-- The idealized kernel likewise, from the run that names the result. -/
theorem frame_kernelIdeal : Cert.frame_KernelIdeal := fun m ρ _ =>
  Cert.KernelIdeal.Body.frame_named (F := Ideal) m ρ Cert.KernelIdeal.Body.rowLocal_ideal

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- On the extended reals both programs end with every edge's probability `edgeProb` of the gathered rows and the
    weights: the kernel's result array by its blocks, the reference's by its operations read at an index; the two
    gathers are one array, the programs' index arithmetic being the same operations. -/
theorem algebraic : Cert.algebraic_KernelIdeal_ReferenceIdeal := by
  intro m ρ m' ρ' _ hagree
  refine ⟨fun c => Cert.KernelIdeal.Body.result m c, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v49_eq, Cert.ReferenceIdeal.RefValue.ref_is_spec, h0, h1, h2, h3, h4, h5, h6, h7]
  unfold Cert.KernelIdeal.Body.result
  beta_reduce
  rw [Cert.Bridge.src_eq, Cert.Bridge.dst_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
